-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S2x1200000 : Shape := ⟨2, ![2, 1200000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S47 .f32 := Host.absf main_arg10
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x47 .f32) (main_arg10 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S2x1200000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x47 .f32) (main_arg10 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S2x1200000 : Shape := ⟨2, ![2, 1200000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1200000 : Shape := ⟨2, ![1, 1200000]⟩
abbrev S1200000 : Shape := ⟨1, ![1200000]⟩
abbrev S1x600000 : Shape := ⟨2, ![1, 600000]⟩
abbrev S600000 : Shape := ⟨1, ![600000]⟩
abbrev S_ : Shape := ⟨0, ![]⟩
abbrev S1200000x1 : Shape := ⟨2, ![1200000, 1]⟩
abbrev S1200000x128 : Shape := ⟨2, ![1200000, 128]⟩
abbrev S1x128 : Shape := ⟨2, ![1, 128]⟩
abbrev S5000x128 : Shape := ⟨2, ![5000, 128]⟩
abbrev S600000x1 : Shape := ⟨2, ![600000, 1]⟩
abbrev S600000x128 : Shape := ⟨2, ![600000, 128]⟩
abbrev S1x47 : Shape := ⟨2, ![1, 47]⟩
abbrev S50000x47 : Shape := ⟨2, ![50000, 47]⟩
abbrev S5000x47 : Shape := ⟨2, ![5000, 47]⟩
abbrev S5000 : Shape := ⟨1, ![5000]⟩
abbrev S5000x1 : Shape := ⟨2, ![5000, 1]⟩

abbrev nBuf : Space → Nat
  | .hbm => 85
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S2x1200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S47, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x128, .f32⟩
  | .hbm, ⟨28, _⟩ => ⟨S_, .f32⟩
  | .hbm, ⟨29, _⟩ => ⟨S50000x128, .f32⟩
  | .hbm, ⟨30, _⟩ => ⟨S1200000x1, .i32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x128, .f32⟩
  | .hbm, ⟨61, _⟩ => ⟨S_, .f32⟩
  | .hbm, ⟨62, _⟩ => ⟨S50000x128, .f32⟩
  | .hbm, ⟨63, _⟩ => ⟨S1200000x1, .i32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S1x47, .f32⟩
  | .hbm, ⟨84, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x47, .f32⟩
  | .local _ .vmem, ⟨25, _⟩ => ⟨S1x47, .f32⟩
  | .local _ .vmem, ⟨26, _⟩ => ⟨S5000x47, .f32⟩
  | .local _ .vmem, ⟨27, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x47 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x47 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x47 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  inb_S5000x47_S5000x47_0_0 : ∀ a, (![0, 0] : Fin 2 → Nat) a + S5000x47.size a ≤ S5000x47.size a
  h_S5000x47 : 0 < S5000x47.numel
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x47.size a ≤ S128x47.size a
  hwx3_2 : ∀ i : grid3.Coords, EltTy.bits .f32 = 32 ∨ (Rect.block (s := S128x47) S128x47.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x47.size a ≤ S1x47.size a
  hwx3_3 : ∀ i : grid3.Coords, EltTy.bits .f32 = 32 ∨ (Rect.block (s := S1x47) S1x47.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x47.size a ≤ S50000x47.size a
  hwx3_4 : ∀ i : grid3.Coords, EltTy.bits .f32 = 32 ∨ (Rect.block (s := S50000x47) S5000x47.size (cc3_transform_4 i) (hinb3_4 i)).WholeWords (EltTy.packing .f32)

variable [Facts₀]

def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x47.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x47.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x47.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S2x1200000 : Shape := ⟨2, ![2, 1200000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1200000 : Shape := ⟨2, ![1, 1200000]⟩
abbrev S1200000 : Shape := ⟨1, ![1200000]⟩
abbrev S1x600000 : Shape := ⟨2, ![1, 600000]⟩
abbrev S600000 : Shape := ⟨1, ![600000]⟩
abbrev S_ : Shape := ⟨0, ![]⟩
abbrev S1200000x1 : Shape := ⟨2, ![1200000, 1]⟩
abbrev S1200000x128 : Shape := ⟨2, ![1200000, 128]⟩
abbrev S1x128 : Shape := ⟨2, ![1, 128]⟩
abbrev S600000x1 : Shape := ⟨2, ![600000, 1]⟩
abbrev S600000x128 : Shape := ⟨2, ![600000, 128]⟩
abbrev S50000x47 : Shape := ⟨2, ![50000, 47]⟩
abbrev S1x47 : Shape := ⟨2, ![1, 47]⟩
abbrev S50000 : Shape := ⟨1, ![50000]⟩
abbrev S50000x1 : Shape := ⟨2, ![50000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S2x1200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S47, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S1x600000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x128, .f32⟩
  | .hbm, ⟨28, _⟩ => ⟨S_, .f32⟩
  | .hbm, ⟨29, _⟩ => ⟨S50000x128, .f32⟩
  | .hbm, ⟨30, _⟩ => ⟨S1200000x1, .i32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S1200000, .i32⟩
  | .hbm, ⟨65, _⟩ => ⟨S1200000, .i1⟩
  | .hbm, ⟨66, _⟩ => ⟨S_, .i32⟩
  | .hbm, ⟨67, _⟩ => ⟨S1200000, .i32⟩
  | .hbm, ⟨68, _⟩ => ⟨S1200000, .i32⟩
  | .hbm, ⟨69, _⟩ => ⟨S1200000, .i32⟩
  | .hbm, ⟨70, _⟩ => ⟨S1200000x1, .i32⟩
  | .hbm, ⟨71, _⟩ => ⟨S1200000x128, .f32⟩
  | .hbm, ⟨72, _⟩ => ⟨S_, .f32⟩
  | .hbm, ⟨73, _⟩ => ⟨S50000x128, .f32⟩
  | .hbm, ⟨74, _⟩ => ⟨S1200000x1, .i32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x128, .f32⟩
  | .hbm, ⟨95, _⟩ => ⟨S_, .f32⟩
  | .hbm, ⟨96, _⟩ => ⟨S50000x128, .f32⟩
  | .hbm, ⟨97, _⟩ => ⟨S600000x1, .i32⟩
  | .hbm, ⟨98, _⟩ => ⟨S50000x128, .f32⟩
  | .hbm, ⟨99, _⟩ => ⟨S50000x128, .f32⟩
  | .hbm, ⟨100, _⟩ => ⟨S50000x47, .f32⟩
  | .hbm, ⟨101, _⟩ => ⟨S1x47, .f32⟩
  | .hbm, ⟨102, _⟩ => ⟨S50000x47, .f32⟩
  | .hbm, ⟨103, _⟩ => ⟨S50000x47, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x47, .f32⟩
  | .hbm, ⟨111, _⟩ => ⟨S50000x47, .f32⟩
  | .hbm, ⟨112, _⟩ => ⟨S50000x47, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x47, .f32⟩
  | .hbm, ⟨118, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_cst : Ref sig .tc := ⟨.hbm, 60, rfl⟩
abbrev main_call1_v0 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call2_cst : Ref sig .tc := ⟨.hbm, 83, rfl⟩
abbrev main_call2_v0 : Ref sig .tc := ⟨.hbm, 84, rfl⟩
abbrev main_v57 : Ref sig .tc := ⟨.hbm, 85, rfl⟩
abbrev main_c_9 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call3_cst : Ref sig .tc := ⟨.hbm, 104, rfl⟩
abbrev main_call3_v0 : Ref sig .tc := ⟨.hbm, 105, rfl⟩
abbrev main_call3_cst_0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_cst_1 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_v73 : Ref sig .tc := ⟨.hbm, 118, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x47_0_1 : S50000x1.BroadcastsInDim S50000x47 (![0, 1] : Fin 2 → Fin S50000x47.rank)
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x47_S50000x47_1_0_0_1_n_n_wf : DotDims.WF S50000x128 S128x47 S50000x47 [1] [0] [0] [1] [] []

variable [Facts₀]

def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KRun.lean ====
/-
  The kernel program's run with its result array named.  The generated frame proves that @main — four pipelined
  regions among four stretches of host operations — terminates without a fault and leaves the arguments as launched;
  its proof ends at a thread state holding every buffer at the contents `W8`, the fold of the host stretches and the
  regions' write-backs through @main.  Read against the final state the same chain also gives the RESULT buffer:
  it ends at `W8` read at the result's reference.
-/
import proofs.«149347_j360777253399_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W8` read at its reference, and every argument array as launched. -/
theorem run_out : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunOut

end
-- ==== Proof.Layers.lean ====
/-
  The two dense layers of the network as whole-array functions on the extended reals, written with the host
  operations of the reference program so that the reference's stages unfold to them.

  * `linRelu x W b`      : max (x · W + b, 0), the bias a 1 × 128 row repeated down the 50000 rows;
  * `logSoftmaxRows y`   : each row of y minus its maximum, minus the logarithm of the sum of the exponentials
                            of the shifted row (the maximum is joined once more with −∞ and the sum starts from 0,
                            as the program computes them);
  * `linLogSoftmax x W b`: logSoftmaxRows (x · W + b) for the 128 × 47 output layer.
-/
import proofs.«149347_j360777253399_1_alg».proof.ReferenceIdeal
import proofs.«149347_j360777253399_1_alg».proof.Proof.Gen.ReferenceIdeal
import Idealize.ShloMosaic.PureOps.Ideal

noncomputable section

namespace Cert.Bridge

open Cert.ReferenceIdeal Cert.ReferenceIdeal.Gen Idealize.ShloMosaic

/-- max (x · W + b, 0) over 50000 × 128, the bias row repeated down the rows. -/
def linRelu (x : FVec Ideal S50000x128 .f32) (W : FVec Ideal S128x128 .f32) (b : FVec Ideal S1x128 .f32) :
    FVec Ideal S50000x128 .f32 :=
  maximumf
    (addf (Host.dotGeneral (F := Ideal) dot_S50000x128_S128x128_S50000x128_1_0_0_1_n_n none x W)
      (broadcastInDim S50000x128 ![0, 1] bcast_S1x128_S50000x128_0_1 b))
    (broadcastInDim S50000x128 ![] bcast_S_S50000x128 (constant (F := Ideal) S_ .f32 0x00000000#32))

/-- A 50000 × 47 array with each row's maximum (joined with −∞) subtracted. -/
def shiftRows (y : FVec Ideal S50000x47 .f32) : FVec Ideal S50000x47 .f32 :=
  subf y
    (broadcastInDim S50000x47 ![0, 1] bcast_S50000x1_S50000x47_0_1
      (broadcastInDim S50000x1 ![0] bcast_S50000_S50000x1_0
        (maximumf (broadcastInDim S50000 ![] bcast_S_S50000 (constant (F := Ideal) S_ .f32 0xFF800000#32))
          (Host.reduce FloatOps.maximumf y (constant (F := Ideal) S_ .f32 0xFF800000#32)
            reducesTo_S50000x47_S50000_d1 h_S_))))

/-- Row-wise log-softmax of a 50000 × 47 array, in the program's operation order. -/
def logSoftmaxRows (y : FVec Ideal S50000x47 .f32) : FVec Ideal S50000x47 .f32 :=
  subf (shiftRows y)
    (broadcastInDim S50000x47 ![0, 1] bcast_S50000x1_S50000x47_0_1
      (Host.log (F := Ideal)
        (broadcastInDim S50000x1 ![0] bcast_S50000_S50000x1_0
          (Host.reduceAdd (F := Ideal) (Host.exp (F := Ideal) (shiftRows y)) (constant (F := Ideal) S_ .f32 0x00000000#32)
            reducesTo_S50000x47_S50000_d1 h_S_))))

/-- x · W + b over 50000 × 47, the bias row repeated down the rows. -/
def linOut (x : FVec Ideal S50000x128 .f32) (W : FVec Ideal S128x47 .f32) (b : FVec Ideal S1x47 .f32) :
    FVec Ideal S50000x47 .f32 :=
  addf (Host.dotGeneral (F := Ideal) dot_S50000x128_S128x47_S50000x47_1_0_0_1_n_n none x W)
    (broadcastInDim S50000x47 ![0, 1] bcast_S1x47_S50000x47_0_1 b)

/-- The output layer: row-wise log-softmax of x · W + b. -/
def linLogSoftmax (x : FVec Ideal S50000x128 .f32) (W : FVec Ideal S128x47 .f32) (b : FVec Ideal S1x47 .f32) :
    FVec Ideal S50000x47 .f32 :=
  logSoftmaxRows (linOut x W b)

end Cert.Bridge

end
-- ==== Proof.Model.lean ====
/-
  The network both programs compute, as one function of the eleven argument arrays on the extended reals.

  A graph network of two layers over 50000 nodes with 128 features.  Each layer is
    * an "ego" convolution: for every egonet edge (row, col) the feature row of node col is added into row `row`
      (a row gather followed by a row scatter-add into zeros), and the result is scaled by the float 2e-05;
    * a linear map with bias followed by max (·, 0);
    * a neighbourhood sum over the graph's edges (src → tgt), again a gather and a scatter-add into zeros, added to
      the node's own features;
    * a second linear map with bias, followed by max (·, 0) in the first layer and by a row-wise log-softmax over the
      47 classes in the second.
  A negative column / source index is first wrapped by adding 50000 (the gather's index convention).

  The functions are written with the host operations in the order the reference program applies them, so that the
  reference's result is this function by unfolding, and each host stretch of the kernel program is one of the pieces.
-/
import proofs.«149347_j360777253399_1_alg».proof.Proof.Layers

noncomputable section

namespace Cert.Bridge

open Cert.ReferenceIdeal Cert.ReferenceIdeal.Gen Idealize.ShloMosaic

/-- A 32-bit integer array of shape `S`. -/
abbrev IVec (S : Shape) : Type := (⟨S, .i32⟩ : BufTy).Contents (Elt Ideal)

/-- Row 0 of the 2 × 1200000 egonet edge list: the node each edge adds INTO. -/
def egoRows (e : IVec S2x1200000) : IVec S1200000 :=
  shapeCast _ (extractStridedSlice S1x1200000 ![0, 0] e slices_S2x1200000_S1x1200000_0_0) shapeCasts_S1x1200000_S1200000

/-- Row 1 of the egonet edge list: the node each edge reads FROM. -/
def egoCols (e : IVec S2x1200000) : IVec S1200000 :=
  shapeCast _ (extractStridedSlice S1x1200000 ![1, 0] e slices_S2x1200000_S1x1200000_1_0) shapeCasts_S1x1200000_S1200000

/-- Row 0 of the 2 × 600000 graph edge list: the source node of each edge. -/
def edgeSrc (e : IVec S2x600000) : IVec S600000 :=
  shapeCast _ (extractStridedSlice S1x600000 ![0, 0] e slices_S2x600000_S1x600000_0_0) shapeCasts_S1x600000_S600000

/-- Row 1 of the graph edge list: the target node of each edge. -/
def edgeTgt (e : IVec S2x600000) : IVec S600000 :=
  shapeCast _ (extractStridedSlice S1x600000 ![1, 0] e slices_S2x600000_S1x600000_1_0) shapeCasts_S1x600000_S600000

/-- A negative index wrapped by adding the node count 50000 (egonet edges). -/
def wrapEgo (v : IVec S1200000) : IVec S1200000 :=
  select (cmpi .slt v (broadcastInDim S1200000 ![] bcast_S_S1200000 (constantI S_ 32 0#32)))
    (addi v (broadcastInDim S1200000 ![] bcast_S_S1200000 (constantI S_ 32 50000#32))) v

/-- A negative index wrapped by adding the node count 50000 (graph edges). -/
def wrapEdge (v : IVec S600000) : IVec S600000 :=
  select (cmpi .slt v (broadcastInDim S600000 ![] bcast_S_S600000 (constantI S_ 32 0#32)))
    (addi v (broadcastInDim S600000 ![] bcast_S_S600000 (constantI S_ 32 50000#32))) v

/-- The ego convolution: (∑ over egonet edges (row, col) with row = node of x(col, ·)) · 2e-05. -/
def egoConv (x : FVec Ideal S50000x128 .f32) (e : IVec S2x1200000) : FVec Ideal S50000x128 .f32 :=
  mulf
    (Host.scatterAdd (F := Ideal) scatter_S50000x128_S1200000x1_S1200000x128_1_0_0_1
      (broadcastInDim S50000x128 ![] bcast_S_S50000x128 (constant (F := Ideal) S_ .f32 0x00000000#32))
      (broadcastInDim S1200000x1 ![0] bcast_S1200000_S1200000x1_0 (egoRows e))
      (Host.gather gather_S50000x128_S1200000x1_S1200000x128_1_0_n_n_0_1_1128 x
        (broadcastInDim S1200000x1 ![0] bcast_S1200000_S1200000x1_0 (wrapEgo (egoCols e)))))
    (broadcastInDim S50000x128 ![] bcast_S_S50000x128 (constant (F := Ideal) S_ .f32 0x37A7C5AC#32))

/-- The neighbourhood sum: row `node` is ∑ over graph edges (src, tgt) with tgt = node of x(src, ·). -/
def neighbourSum (x : FVec Ideal S50000x128 .f32) (e : IVec S2x600000) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (edgeTgt e))
    (Host.gather gather_S50000x128_S600000x1_S600000x128_1_0_n_n_0_1_1128 x
      (broadcastInDim S600000x1 ![0] bcast_S600000_S600000x1_0 (wrapEdge (edgeSrc e))))

/-- A length-128 bias as a 1 × 128 row. -/
def biasRow (b : FVec Ideal S128 .f32) : FVec Ideal S1x128 .f32 := broadcastInDim S1x128 ![1] bcast_S128_S1x128_1 b

/-- A length-47 bias as a 1 × 47 row. -/
def biasRowOut (b : FVec Ideal S47 .f32) : FVec Ideal S1x47 .f32 := broadcastInDim S1x47 ![1] bcast_S47_S1x47_1 b

/-- After the first layer's ego convolution and linear map. -/
def hidden0 (x : FVec Ideal S50000x128 .f32) (eg : IVec S2x1200000) (W0 : FVec Ideal S128x128 .f32) (b0 : FVec Ideal S128 .f32) :
    FVec Ideal S50000x128 .f32 :=
  linRelu (egoConv x eg) W0 (biasRow b0)

/-- After the first layer's graph step: the node's features plus its neighbours', through the second linear map. -/
def hidden1 (h : FVec Ideal S50000x128 .f32) (ed : IVec S2x600000) (W1 : FVec Ideal S128x128 .f32) (b1 : FVec Ideal S128 .f32) :
    FVec Ideal S50000x128 .f32 :=
  linRelu (addf h (neighbourSum h ed)) W1 (biasRow b1)

/-- The output: the second layer's graph step through the 128 × 47 map and the row-wise log-softmax. -/
def output (h : FVec Ideal S50000x128 .f32) (ed : IVec S2x600000) (W : FVec Ideal S128x47 .f32) (b : FVec Ideal S47 .f32) :
    FVec Ideal S50000x47 .f32 :=
  linLogSoftmax (addf h (neighbourSum h ed)) W (biasRowOut b)

/-- The whole network. -/
def network (x : FVec Ideal S50000x128 .f32) (ed : IVec S2x600000) (eg : IVec S2x1200000)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (W3 : FVec Ideal S128x47 .f32) (b3 : FVec Ideal S47 .f32) :
    FVec Ideal S50000x47 .f32 :=
  output (hidden0 (hidden1 (hidden0 x eg W0 b0) ed W1 b1) eg W2 b2) ed W3 b3

end Cert.Bridge

end
-- ==== Proof.LibRowReshape.lean ====
/-
  A length-n vector laid out as a 1 × n row, for any n and any element type: reshaping it ([n] → [1, n]) and
  broadcasting it along a new leading unit axis (broadcast_in_dim, dims = [1]) are the same array — entry (0, q) is
  v q either way.  (A kernel wrapper's `b.reshape(1, n)` against a reference's broadcast of the same bias.)
-/
import Idealize.ShloMosaic.Lib.Pipeline.Value
import Idealize.ShloMosaic.Lib.ValueIdx

noncomputable section

namespace Cert.LibRowReshape

open Idealize.ShloMosaic

/-- The reshape [n] → [1, n] is the broadcast [n] → [1, n] along the new axis. -/
theorem reshape_row_eq_broadcast {α : Type} {n : Nat} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ (![1] : Fin 1 → Fin 2) h' v := by
  funext j
  have hj0 : (j 0).val = 0 := by have := (j 0).isLt; simp at this; omega
  have hj1 : (j 1).val < n := (j 1).isLt
  let k : (⟨1, ![n]⟩ : Shape).Idx := fun a => ⟨(j 1).val, by match a with | ⟨0, _⟩ => exact hj1⟩
  rw [shapeCast_apply v h j k (by
        rw [Shape.rowMajor_val_one, Shape.rowMajor_val_two]
        show (j 1).val = (j 0).val * n + (j 1).val
        rw [hj0]; omega),
      broadcastInDim_apply (![1] : Fin 1 → Fin 2) h' v j k (fun a => by
        match a with
        | ⟨0, _⟩ =>
          show (j 1).val = if n = 1 then 0 else (j 1).val
          by_cases hn : n = 1
          · rw [if_pos hn]; omega
          · rw [if_neg hn])]

end Cert.LibRowReshape

end
-- ==== Proof.KReads0.lean ====
/-
  The kernel program's first host stretch, read buffer by buffer.  From the launch contents it computes the four
  index vectors (rows and columns of the egonet edges, sources and targets of the graph edges), the first ego
  convolution of the input features, and the first bias as a 1 × 128 row (a reshape, which is the broadcast along a
  new leading axis); it writes no argument.  Region 0 then overwrites only its own output array, so every other
  buffer is read after it as before it.
-/
import proofs.«149347_j360777253399_1_alg».proof.Proof.Gen.KernelIdeal.Frame
import proofs.«149347_j360777253399_1_alg».proof.Proof.Model
import proofs.«149347_j360777253399_1_alg».proof.Proof.LibRowReshape
import Idealize.ShloMosaic.Lib.StableHlo.Run

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- After the first stretch: the egonet edges' rows. -/
theorem w1_v1 : W1 m ρ c (Proc.devRef .tc main_v1) = Cert.Bridge.egoRows (m ((c.tc : Thread nD τ).loc main_arg2)) := by
  show StableHlo.after hostOps0 (W0 m ρ c) (Proc.devRef .tc main_v1) = _
  after_results_simp
  try rfl

set_option maxHeartbeats 4000000 in
/-- After the first stretch: the egonet edges' columns. -/
theorem w1_v3 : W1 m ρ c (Proc.devRef .tc main_v3) = Cert.Bridge.egoCols (m ((c.tc : Thread nD τ).loc main_arg2)) := by
  show StableHlo.after hostOps0 (W0 m ρ c) (Proc.devRef .tc main_v3) = _
  after_results_simp
  try rfl

set_option maxHeartbeats 4000000 in
/-- After the first stretch: the graph edges' sources. -/
theorem w1_v5 : W1 m ρ c (Proc.devRef .tc main_v5) = Cert.Bridge.edgeSrc (m ((c.tc : Thread nD τ).loc main_arg1)) := by
  show StableHlo.after hostOps0 (W0 m ρ c) (Proc.devRef .tc main_v5) = _
  after_results_simp
  try rfl

set_option maxHeartbeats 4000000 in
/-- After the first stretch: the graph edges' targets. -/
theorem w1_v7 : W1 m ρ c (Proc.devRef .tc main_v7) = Cert.Bridge.edgeTgt (m ((c.tc : Thread nD τ).loc main_arg1)) := by
  show StableHlo.after hostOps0 (W0 m ρ c) (Proc.devRef .tc main_v7) = _
  after_results_simp
  try rfl

set_option maxHeartbeats 4000000 in
/-- After the first stretch: the first ego convolution. -/
theorem w1_conv : W1 m ρ c (Proc.devRef .tc main_v19) = Cert.Bridge.egoConv (m ((c.tc : Thread nD τ).loc main_arg0)) (m ((c.tc : Thread nD τ).loc main_arg2)) := by
  show StableHlo.after hostOps0 (W0 m ρ c) (Proc.devRef .tc main_v19) = _
  after_results_simp
  try rfl

set_option maxHeartbeats 4000000 in
/-- After the first stretch: the first bias as a row. -/
theorem w1_bias : W1 m ρ c (Proc.devRef .tc main_v20) = Cert.Bridge.biasRow (m ((c.tc : Thread nD τ).loc main_arg4)) := by
  show StableHlo.after hostOps0 (W0 m ρ c) (Proc.devRef .tc main_v20) = _
  after_results_simp
  exact Cert.LibRowReshape.reshape_row_eq_broadcast (n := 128) (m ((c.tc : Thread nD τ).loc main_arg4)) shapeCasts_S128_S1x128 Cert.ReferenceIdeal.Gen.bcast_S128_S1x128_1

set_option maxHeartbeats 4000000 in
/-- The first stretch leaves argument 3 as launched. -/
theorem w1_arg3 : W1 m ρ c (Proc.devRef .tc main_arg3) = (m ((c.tc : Thread nD τ).loc main_arg3)) := by
  show StableHlo.after hostOps0 (W0 m ρ c) (Proc.devRef .tc main_arg3) = _
  after_results_simp
  try rfl

set_option maxHeartbeats 4000000 in
/-- The first stretch leaves argument 5 as launched. -/
theorem w1_arg5 : W1 m ρ c (Proc.devRef .tc main_arg5) = (m ((c.tc : Thread nD τ).loc main_arg5)) := by
  show StableHlo.after hostOps0 (W0 m ρ c) (Proc.devRef .tc main_arg5) = _
  after_results_simp
  try rfl

set_option maxHeartbeats 4000000 in
/-- The first stretch leaves argument 6 as launched. -/
theorem w1_arg6 : W1 m ρ c (Proc.devRef .tc main_arg6) = (m ((c.tc : Thread nD τ).loc main_arg6)) := by
  show StableHlo.after hostOps0 (W0 m ρ c) (Proc.devRef .tc main_arg6) = _
  after_results_simp
  try rfl

set_option maxHeartbeats 4000000 in
/-- The first stretch leaves argument 7 as launched. -/
theorem w1_arg7 : W1 m ρ c (Proc.devRef .tc main_arg7) = (m ((c.tc : Thread nD τ).loc main_arg7)) := by
  show StableHlo.after hostOps0 (W0 m ρ c) (Proc.devRef .tc main_arg7) = _
  after_results_simp
  try rfl

set_option maxHeartbeats 4000000 in
/-- The first stretch leaves argument 8 as launched. -/
theorem w1_arg8 : W1 m ρ c (Proc.devRef .tc main_arg8) = (m ((c.tc : Thread nD τ).loc main_arg8)) := by
  show StableHlo.after hostOps0 (W0 m ρ c) (Proc.devRef .tc main_arg8) = _
  after_results_simp
  try rfl

set_option maxHeartbeats 4000000 in
/-- The first stretch leaves argument 9 as launched. -/
theorem w1_arg9 : W1 m ρ c (Proc.devRef .tc main_arg9) = (m ((c.tc : Thread nD τ).loc main_arg9)) := by
  show StableHlo.after hostOps0 (W0 m ρ c) (Proc.devRef .tc main_arg9) = _
  after_results_simp
  try rfl

set_option maxHeartbeats 4000000 in
/-- The first stretch leaves argument 10 as launched. -/
theorem w1_arg10 : W1 m ρ c (Proc.devRef .tc main_arg10) = (m ((c.tc : Thread nD τ).loc main_arg10)) := by
  show StableHlo.after hostOps0 (W0 m ρ c) (Proc.devRef .tc main_arg10) = _
  after_results_simp
  try rfl

/-- After region 0: the egonet edges' rows. -/
theorem w2_v1 : W2 m ρ c (Proc.devRef .tc main_v1) = Cert.Bridge.egoRows (m ((c.tc : Thread nD τ).loc main_arg2)) :=
  (W2_of_ne m ρ c main_v1 (by decide)).trans (w1_v1 m ρ c)

/-- After region 0: the egonet edges' columns. -/
theorem w2_v3 : W2 m ρ c (Proc.devRef .tc main_v3) = Cert.Bridge.egoCols (m ((c.tc : Thread nD τ).loc main_arg2)) :=
  (W2_of_ne m ρ c main_v3 (by decide)).trans (w1_v3 m ρ c)

/-- After region 0: the graph edges' sources. -/
theorem w2_v5 : W2 m ρ c (Proc.devRef .tc main_v5) = Cert.Bridge.edgeSrc (m ((c.tc : Thread nD τ).loc main_arg1)) :=
  (W2_of_ne m ρ c main_v5 (by decide)).trans (w1_v5 m ρ c)

/-- After region 0: the graph edges' targets. -/
theorem w2_v7 : W2 m ρ c (Proc.devRef .tc main_v7) = Cert.Bridge.edgeTgt (m ((c.tc : Thread nD τ).loc main_arg1)) :=
  (W2_of_ne m ρ c main_v7 (by decide)).trans (w1_v7 m ρ c)

/-- Region 0 leaves argument 5 as launched. -/
theorem w2_arg5 : W2 m ρ c (Proc.devRef .tc main_arg5) = (m ((c.tc : Thread nD τ).loc main_arg5)) :=
  (W2_of_ne m ρ c main_arg5 (by decide)).trans (w1_arg5 m ρ c)

/-- Region 0 leaves argument 6 as launched. -/
theorem w2_arg6 : W2 m ρ c (Proc.devRef .tc main_arg6) = (m ((c.tc : Thread nD τ).loc main_arg6)) :=
  (W2_of_ne m ρ c main_arg6 (by decide)).trans (w1_arg6 m ρ c)

/-- Region 0 leaves argument 7 as launched. -/
theorem w2_arg7 : W2 m ρ c (Proc.devRef .tc main_arg7) = (m ((c.tc : Thread nD τ).loc main_arg7)) :=
  (W2_of_ne m ρ c main_arg7 (by decide)).trans (w1_arg7 m ρ c)

/-- Region 0 leaves argument 8 as launched. -/
theorem w2_arg8 : W2 m ρ c (Proc.devRef .tc main_arg8) = (m ((c.tc : Thread nD τ).loc main_arg8)) :=
  (W2_of_ne m ρ c main_arg8 (by decide)).trans (w1_arg8 m ρ c)

/-- Region 0 leaves argument 9 as launched. -/
theorem w2_arg9 : W2 m ρ c (Proc.devRef .tc main_arg9) = (m ((c.tc : Thread nD τ).loc main_arg9)) :=
  (W2_of_ne m ρ c main_arg9 (by decide)).trans (w1_arg9 m ρ c)

/-- Region 0 leaves argument 10 as launched. -/
theorem w2_arg10 : W2 m ρ c (Proc.devRef .tc main_arg10) = (m ((c.tc : Thread nD τ).loc main_arg10)) :=
  (W2_of_ne m ρ c main_arg10 (by decide)).trans (w1_arg10 m ρ c)

end Cert.KernelIdeal.HostReads

end
-- ==== Proof.KReads1.lean ====
/-
  The kernel program's second host stretch: from the contents region 0 leaves, the neighbourhood sum of region 0's
  output over the graph edges and the second bias as a row; region 1 then overwrites only its own output.
-/
import proofs.«149347_j360777253399_1_alg».proof.Proof.KReads0
import Idealize.ShloMosaic.Lib.StableHlo.Run

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- The second stretch leaves region 0's output in place. -/
theorem w3_h : W3 m ρ c (Proc.devRef .tc main_v21) = W2 m ρ c (Proc.devRef .tc main_v21) := by
  show StableHlo.after hostOps1 (W2 m ρ c) (Proc.devRef .tc main_v21) = _
  after_results_simp
  try rfl

set_option maxHeartbeats 4000000 in
/-- After the second stretch: the neighbourhood sum of region 0's output. -/
theorem w3_aggr : W3 m ρ c (Proc.devRef .tc main_v31) = Cert.Bridge.neighbourSum (W2 m ρ c (Proc.devRef .tc main_v21)) (m ((c.tc : Thread nD τ).loc main_arg1)) := by
  show StableHlo.after hostOps1 (W2 m ρ c) (Proc.devRef .tc main_v31) = _
  after_results_simp
  rw [w2_v5 m ρ c, w2_v7 m ρ c]
  try rfl

set_option maxHeartbeats 4000000 in
/-- After the second stretch: the second bias as a row. -/
theorem w3_bias : W3 m ρ c (Proc.devRef .tc main_v32) = Cert.Bridge.biasRow (m ((c.tc : Thread nD τ).loc main_arg6)) := by
  show StableHlo.after hostOps1 (W2 m ρ c) (Proc.devRef .tc main_v32) = _
  after_results_simp
  rw [w2_arg6 m ρ c]
  exact Cert.LibRowReshape.reshape_row_eq_broadcast (n := 128) (m ((c.tc : Thread nD τ).loc main_arg6)) shapeCasts_S128_S1x128 Cert.ReferenceIdeal.Gen.bcast_S128_S1x128_1

set_option maxHeartbeats 4000000 in
/-- The second stretch leaves argument 5 as launched. -/
theorem w3_arg5 : W3 m ρ c (Proc.devRef .tc main_arg5) = (m ((c.tc : Thread nD τ).loc main_arg5)) := by
  show StableHlo.after hostOps1 (W2 m ρ c) (Proc.devRef .tc main_arg5) = _
  after_results_simp
  exact w2_arg5 m ρ c

set_option maxHeartbeats 4000000 in
/-- After the second stretch: the egonet edges' rows. -/
theorem w3_v1 : W3 m ρ c (Proc.devRef .tc main_v1) = Cert.Bridge.egoRows (m ((c.tc : Thread nD τ).loc main_arg2)) := by
  show StableHlo.after hostOps1 (W2 m ρ c) (Proc.devRef .tc main_v1) = _
  after_results_simp
  exact w2_v1 m ρ c

set_option maxHeartbeats 4000000 in
/-- After the second stretch: the egonet edges' columns. -/
theorem w3_v3 : W3 m ρ c (Proc.devRef .tc main_v3) = Cert.Bridge.egoCols (m ((c.tc : Thread nD τ).loc main_arg2)) := by
  show StableHlo.after hostOps1 (W2 m ρ c) (Proc.devRef .tc main_v3) = _
  after_results_simp
  exact w2_v3 m ρ c

set_option maxHeartbeats 4000000 in
/-- After the second stretch: the graph edges' sources. -/
theorem w3_v5 : W3 m ρ c (Proc.devRef .tc main_v5) = Cert.Bridge.edgeSrc (m ((c.tc : Thread nD τ).loc main_arg1)) := by
  show StableHlo.after hostOps1 (W2 m ρ c) (Proc.devRef .tc main_v5) = _
  after_results_simp
  exact w2_v5 m ρ c

set_option maxHeartbeats 4000000 in
/-- After the second stretch: the graph edges' targets. -/
theorem w3_v7 : W3 m ρ c (Proc.devRef .tc main_v7) = Cert.Bridge.edgeTgt (m ((c.tc : Thread nD τ).loc main_arg1)) := by
  show StableHlo.after hostOps1 (W2 m ρ c) (Proc.devRef .tc main_v7) = _
  after_results_simp
  exact w2_v7 m ρ c

set_option maxHeartbeats 4000000 in
/-- The second stretch leaves argument 7 as launched. -/
theorem w3_arg7 : W3 m ρ c (Proc.devRef .tc main_arg7) = (m ((c.tc : Thread nD τ).loc main_arg7)) := by
  show StableHlo.after hostOps1 (W2 m ρ c) (Proc.devRef .tc main_arg7) = _
  after_results_simp
  exact w2_arg7 m ρ c

set_option maxHeartbeats 4000000 in
/-- The second stretch leaves argument 8 as launched. -/
theorem w3_arg8 : W3 m ρ c (Proc.devRef .tc main_arg8) = (m ((c.tc : Thread nD τ).loc main_arg8)) := by
  show StableHlo.after hostOps1 (W2 m ρ c) (Proc.devRef .tc main_arg8) = _
  after_results_simp
  exact w2_arg8 m ρ c

set_option maxHeartbeats 4000000 in
/-- The second stretch leaves argument 9 as launched. -/
theorem w3_arg9 : W3 m ρ c (Proc.devRef .tc main_arg9) = (m ((c.tc : Thread nD τ).loc main_arg9)) := by
  show StableHlo.after hostOps1 (W2 m ρ c) (Proc.devRef .tc main_arg9) = _
  after_results_simp
  exact w2_arg9 m ρ c

set_option maxHeartbeats 4000000 in
/-- The second stretch leaves argument 10 as launched. -/
theorem w3_arg10 : W3 m ρ c (Proc.devRef .tc main_arg10) = (m ((c.tc : Thread nD τ).loc main_arg10)) := by
  show StableHlo.after hostOps1 (W2 m ρ c) (Proc.devRef .tc main_arg10) = _
  after_results_simp
  exact w2_arg10 m ρ c

/-- After region 1: the egonet edges' rows. -/
theorem w4_v1 : W4 m ρ c (Proc.devRef .tc main_v1) = Cert.Bridge.egoRows (m ((c.tc : Thread nD τ).loc main_arg2)) :=
  (W4_of_ne m ρ c main_v1 (by decide)).trans (w3_v1 m ρ c)

/-- After region 1: the egonet edges' columns. -/
theorem w4_v3 : W4 m ρ c (Proc.devRef .tc main_v3) = Cert.Bridge.egoCols (m ((c.tc : Thread nD τ).loc main_arg2)) :=
  (W4_of_ne m ρ c main_v3 (by decide)).trans (w3_v3 m ρ c)

/-- After region 1: the graph edges' sources. -/
theorem w4_v5 : W4 m ρ c (Proc.devRef .tc main_v5) = Cert.Bridge.edgeSrc (m ((c.tc : Thread nD τ).loc main_arg1)) :=
  (W4_of_ne m ρ c main_v5 (by decide)).trans (w3_v5 m ρ c)

/-- After region 1: the graph edges' targets. -/
theorem w4_v7 : W4 m ρ c (Proc.devRef .tc main_v7) = Cert.Bridge.edgeTgt (m ((c.tc : Thread nD τ).loc main_arg1)) :=
  (W4_of_ne m ρ c main_v7 (by decide)).trans (w3_v7 m ρ c)

/-- Region 1 leaves argument 7 as launched. -/
theorem w4_arg7 : W4 m ρ c (Proc.devRef .tc main_arg7) = (m ((c.tc : Thread nD τ).loc main_arg7)) :=
  (W4_of_ne m ρ c main_arg7 (by decide)).trans (w3_arg7 m ρ c)

/-- Region 1 leaves argument 8 as launched. -/
theorem w4_arg8 : W4 m ρ c (Proc.devRef .tc main_arg8) = (m ((c.tc : Thread nD τ).loc main_arg8)) :=
  (W4_of_ne m ρ c main_arg8 (by decide)).trans (w3_arg8 m ρ c)

/-- Region 1 leaves argument 9 as launched. -/
theorem w4_arg9 : W4 m ρ c (Proc.devRef .tc main_arg9) = (m ((c.tc : Thread nD τ).loc main_arg9)) :=
  (W4_of_ne m ρ c main_arg9 (by decide)).trans (w3_arg9 m ρ c)

/-- Region 1 leaves argument 10 as launched. -/
theorem w4_arg10 : W4 m ρ c (Proc.devRef .tc main_arg10) = (m ((c.tc : Thread nD τ).loc main_arg10)) :=
  (W4_of_ne m ρ c main_arg10 (by decide)).trans (w3_arg10 m ρ c)

end Cert.KernelIdeal.HostReads

end
-- ==== Proof.KReads2.lean ====
/-
  The kernel program's third host stretch: from the contents region 1 leaves, the ego convolution of region 1's
  output and the third bias as a row; region 2 then overwrites only its own output.
-/
import proofs.«149347_j360777253399_1_alg».proof.Proof.KReads1
import Idealize.ShloMosaic.Lib.StableHlo.Run

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- After the third stretch: the ego convolution of region 1's output. -/
theorem w5_conv : W5 m ρ c (Proc.devRef .tc main_v45) = Cert.Bridge.egoConv (W4 m ρ c (Proc.devRef .tc main_v33)) (m ((c.tc : Thread nD τ).loc main_arg2)) := by
  show StableHlo.after hostOps2 (W4 m ρ c) (Proc.devRef .tc main_v45) = _
  after_results_simp
  rw [w4_v1 m ρ c, w4_v3 m ρ c]
  try rfl

set_option maxHeartbeats 4000000 in
/-- After the third stretch: the third bias as a row. -/
theorem w5_bias : W5 m ρ c (Proc.devRef .tc main_v46) = Cert.Bridge.biasRow (m ((c.tc : Thread nD τ).loc main_arg8)) := by
  show StableHlo.after hostOps2 (W4 m ρ c) (Proc.devRef .tc main_v46) = _
  after_results_simp
  rw [w4_arg8 m ρ c]
  exact Cert.LibRowReshape.reshape_row_eq_broadcast (n := 128) (m ((c.tc : Thread nD τ).loc main_arg8)) shapeCasts_S128_S1x128 Cert.ReferenceIdeal.Gen.bcast_S128_S1x128_1

set_option maxHeartbeats 4000000 in
/-- The third stretch leaves argument 7 as launched. -/
theorem w5_arg7 : W5 m ρ c (Proc.devRef .tc main_arg7) = (m ((c.tc : Thread nD τ).loc main_arg7)) := by
  show StableHlo.after hostOps2 (W4 m ρ c) (Proc.devRef .tc main_arg7) = _
  after_results_simp
  exact w4_arg7 m ρ c

set_option maxHeartbeats 4000000 in
/-- After the third stretch: the graph edges' sources. -/
theorem w5_v5 : W5 m ρ c (Proc.devRef .tc main_v5) = Cert.Bridge.edgeSrc (m ((c.tc : Thread nD τ).loc main_arg1)) := by
  show StableHlo.after hostOps2 (W4 m ρ c) (Proc.devRef .tc main_v5) = _
  after_results_simp
  exact w4_v5 m ρ c

set_option maxHeartbeats 4000000 in
/-- After the third stretch: the graph edges' targets. -/
theorem w5_v7 : W5 m ρ c (Proc.devRef .tc main_v7) = Cert.Bridge.edgeTgt (m ((c.tc : Thread nD τ).loc main_arg1)) := by
  show StableHlo.after hostOps2 (W4 m ρ c) (Proc.devRef .tc main_v7) = _
  after_results_simp
  exact w4_v7 m ρ c

set_option maxHeartbeats 4000000 in
/-- The third stretch leaves argument 9 as launched. -/
theorem w5_arg9 : W5 m ρ c (Proc.devRef .tc main_arg9) = (m ((c.tc : Thread nD τ).loc main_arg9)) := by
  show StableHlo.after hostOps2 (W4 m ρ c) (Proc.devRef .tc main_arg9) = _
  after_results_simp
  exact w4_arg9 m ρ c

set_option maxHeartbeats 4000000 in
/-- The third stretch leaves argument 10 as launched. -/
theorem w5_arg10 : W5 m ρ c (Proc.devRef .tc main_arg10) = (m ((c.tc : Thread nD τ).loc main_arg10)) := by
  show StableHlo.after hostOps2 (W4 m ρ c) (Proc.devRef .tc main_arg10) = _
  after_results_simp
  exact w4_arg10 m ρ c

/-- After region 2: the graph edges' sources. -/
theorem w6_v5 : W6 m ρ c (Proc.devRef .tc main_v5) = Cert.Bridge.edgeSrc (m ((c.tc : Thread nD τ).loc main_arg1)) :=
  (W6_of_ne m ρ c main_v5 (by decide)).trans (w5_v5 m ρ c)

/-- After region 2: the graph edges' targets. -/
theorem w6_v7 : W6 m ρ c (Proc.devRef .tc main_v7) = Cert.Bridge.edgeTgt (m ((c.tc : Thread nD τ).loc main_arg1)) :=
  (W6_of_ne m ρ c main_v7 (by decide)).trans (w5_v7 m ρ c)

/-- Region 2 leaves argument 9 as launched. -/
theorem w6_arg9 : W6 m ρ c (Proc.devRef .tc main_arg9) = (m ((c.tc : Thread nD τ).loc main_arg9)) :=
  (W6_of_ne m ρ c main_arg9 (by decide)).trans (w5_arg9 m ρ c)

/-- Region 2 leaves argument 10 as launched. -/
theorem w6_arg10 : W6 m ρ c (Proc.devRef .tc main_arg10) = (m ((c.tc : Thread nD τ).loc main_arg10)) :=
  (W6_of_ne m ρ c main_arg10 (by decide)).trans (w5_arg10 m ρ c)

end Cert.KernelIdeal.HostReads

end
-- ==== Proof.KReads3.lean ====
/-
  The kernel program's last host stretch: from the contents region 2 leaves, the neighbourhood sum of region 2's
  output over the graph edges and the output bias as a 1 × 47 row.
-/
import proofs.«149347_j360777253399_1_alg».proof.Proof.KReads2
import Idealize.ShloMosaic.Lib.StableHlo.Run

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- The last stretch leaves region 2's output in place. -/
theorem w7_h : W7 m ρ c (Proc.devRef .tc main_v47) = W6 m ρ c (Proc.devRef .tc main_v47) := by
  show StableHlo.after hostOps3 (W6 m ρ c) (Proc.devRef .tc main_v47) = _
  after_results_simp
  try rfl

set_option maxHeartbeats 4000000 in
/-- After the last stretch: the neighbourhood sum of region 2's output. -/
theorem w7_aggr : W7 m ρ c (Proc.devRef .tc main_v57) = Cert.Bridge.neighbourSum (W6 m ρ c (Proc.devRef .tc main_v47)) (m ((c.tc : Thread nD τ).loc main_arg1)) := by
  show StableHlo.after hostOps3 (W6 m ρ c) (Proc.devRef .tc main_v57) = _
  after_results_simp
  rw [w6_v5 m ρ c, w6_v7 m ρ c]
  try rfl

set_option maxHeartbeats 4000000 in
/-- After the last stretch: the output bias as a row. -/
theorem w7_bias : W7 m ρ c (Proc.devRef .tc main_v58) = Cert.Bridge.biasRowOut (m ((c.tc : Thread nD τ).loc main_arg10)) := by
  show StableHlo.after hostOps3 (W6 m ρ c) (Proc.devRef .tc main_v58) = _
  after_results_simp
  rw [w6_arg10 m ρ c]
  exact Cert.LibRowReshape.reshape_row_eq_broadcast (n := 47) (m ((c.tc : Thread nD τ).loc main_arg10)) shapeCasts_S47_S1x47 Cert.ReferenceIdeal.Gen.bcast_S47_S1x47_1

set_option maxHeartbeats 4000000 in
/-- The last stretch leaves argument 9 as launched. -/
theorem w7_arg9 : W7 m ρ c (Proc.devRef .tc main_arg9) = (m ((c.tc : Thread nD τ).loc main_arg9)) := by
  show StableHlo.after hostOps3 (W6 m ρ c) (Proc.devRef .tc main_arg9) = _
  after_results_simp
  exact w6_arg9 m ρ c

end Cert.KernelIdeal.HostReads

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.RegionReluSpec.lean ====
/-
  The dense layer followed by the rectifier, read at an entry.

  `linRelu x W b` is max (x · W + b, 0) over 50000 × 128, written with the host operations.  At row r and
  column q it is  max (∑ k, x (r, k) · W (k, q) + b (0, q), 0):  the host's matrix product at an entry is the sum
  over the contracted coordinate, the bias row repeated down the rows reads its one row at column q, and the
  scalar zero laid over the whole array reads that scalar.  The zero stays the value of its word.
-/
import proofs.«149347_j360777253399_1_alg».proof.Proof.Layers
import proofs.«149347_j360777253399_1_alg».proof.Proof.LibDot
import Idealize.ShloMosaic.Lib.Pipeline.Value
import Idealize.ShloMosaic.Lib.ValueIdx

noncomputable section

namespace Cert.KernelIdeal.RegionValue.Relu

open Cert.ReferenceIdeal Cert.ReferenceIdeal.Gen Idealize.ShloMosaic Idealize.ShloMosaic.ValueIdx

/-- The host's product of the 50000 × 128 activations with the 128 × 128 weights, at (r, q). -/
theorem hostProd_apply (x : FVec Ideal S50000x128 .f32) (W : FVec Ideal S128x128 .f32) (r : Fin 50000) (q : Fin 128) :
    Host.dotGeneral (F := Ideal) dot_S50000x128_S128x128_S50000x128_1_0_0_1_n_n none x W (ix2 r q)
      = ∑ k : Fin 128, x (ix2 r k) * W (ix2 k q) :=
  Cert.LibDot.dotGeneral_plain_apply dot_S50000x128_S128x128_S50000x128_1_0_0_1_n_n rfl rfl rfl rfl rfl rfl
    none .single x W (ix2 r q)

/-- The 1 × 128 bias row repeated down the 50000 rows, at (r, q): the row's entry at column q. -/
theorem biasRows_apply (b : FVec Ideal S1x128 .f32) (r : Fin 50000) (q : Fin 128) :
    broadcastInDim S50000x128 ![0, 1] bcast_S1x128_S50000x128_0_1 b (ix2 r q) = b (ix2 (0 : Fin 1) q) :=
  broadcastInDim_apply _ bcast_S1x128_S50000x128_0_1 b (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- The scalar zero laid over the 50000 × 128 array, at any entry: the value of the zero word. -/
theorem zeroSplat_apply (i : S50000x128.Idx) :
    broadcastInDim S50000x128 ![] bcast_S_S50000x128 (constant (F := Ideal) S_ .f32 0x00000000#32) i
      = Ideal.ofBits .f32 0x00000000#32 :=
  broadcastInDim_apply _ bcast_S_S50000x128 (constant (F := Ideal) S_ .f32 0x00000000#32) i (fun a => a.elim0)
    (fun a => a.elim0)

/-- The layer at row r and column q. -/
theorem linRelu_apply (x : FVec Ideal S50000x128 .f32) (W : FVec Ideal S128x128 .f32) (b : FVec Ideal S1x128 .f32)
    (r : Fin 50000) (q : Fin 128) :
    Cert.Bridge.linRelu x W b (ix2 r q)
      = max ((∑ k : Fin 128, x (ix2 r k) * W (ix2 k q)) + b (ix2 (0 : Fin 1) q)) (Ideal.ofBits .f32 0x00000000#32) := by
  unfold Cert.Bridge.linRelu
  rw [maximumf_apply, addf_apply, hostProd_apply, biasRows_apply, zeroSplat_apply]

end Cert.KernelIdeal.RegionValue.Relu

end
-- ==== Proof.LibMatProd.lean ====
/-
  A matrix product as one function on the extended reals, and the format changes that do not change it.

  General in the extents M, K, N (and, for the gather, in the shapes): nothing here mentions a program.

  `matProd l r` is the rows × contraction by contraction × columns product read entry by entry: the entry at
  (i, j) is the sum over k of l (i, k) · r (k, j). Both printed forms of the product are this function: the host's
  `dot_general` of the whole operands, and a `tpu.matmul` of two operands rounded to a narrower float format and
  accumulated into the zero splat — on the extended reals a change of float format is the identity. A change of format
  around a row gather is the identity too: the gather only re-indexes its operand.
-/
import proofs.«149347_j360777253399_1_alg».proof.Proof.LibDot
import Idealize.ShloMosaic.Lib.ValueIdx
import Idealize.ShloMosaic.PureOps.Ideal.Laws

noncomputable section

namespace Cert.LibMatProd

open Idealize.ShloMosaic Idealize.ShloMosaic.ValueIdx

variable {M K N : Nat}

/-- The product of an M × K and a K × N matrix of extended reals, entry by entry. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

/-- The host's `dot_general` contracting the left operand's second axis with the right operand's first is the
    product. -/
theorem dotGeneral_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) :
    Host.dotGeneral d none l r = matProd l r :=
  funext fun y => LibDot.dotGeneral_plain_apply d hlc hrc hln hrn hlb hrb none .single l r y

/-- A `tpu.matmul` of the two operands rounded to bf16, into the zero accumulator, is the product of the operands
    themselves: at an entry. -/
theorem matmul_trunc_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32)
    (l : FVec Ideal ⟨2, ![M, K]⟩ .f32) (r : FVec Ideal ⟨2, ![K, N]⟩ .f32) (y : (⟨2, ![M, N]⟩ : Shape).Idx) :
    FloatOps.matmul d none (truncf .bf16 l hb) (truncf .bf16 r hb) (constant ⟨2, ![M, N]⟩ .f32 0x00000000#32) y
      = ∑ k : Fin K, l (ix2 (y 0) k) * r (ix2 k (y 1)) :=
  LibDot.matmul_zero_plain_apply d hlc hrc hln hrn hlb hrb none (truncf .bf16 l hb) (truncf .bf16 r hb) y

variable {s si t : Shape} {w : Nat}

/-- Rounding to a narrower format, gathering rows, and widening again is the gather itself. -/
theorem extf_gather_truncf (d : GatherDims s si t) (hb : FTy.bits .bf16 < FTy.bits .f32)
    (x : FVec Ideal s .f32) (idx : IVec si w) :
    extf .f32 (Host.gather d (truncf .bf16 x hb) idx) hb = Host.gather d x idx :=
  funext fun _ => rfl

end Cert.LibMatProd

end
-- ==== Proof.RegionReluPayload.lean ====
/-
  What one grid point computes, read at an entry.

  The body of each of the three rectified layers takes a 5000 × 128 block x of activations (the second layer first
  adds two such blocks), the whole 128 × 128 weights W and the 1 × 128 bias row b, and stores
  max (x · W + b, 0).  On the extended reals the rounding of the operands to a narrower format is the identity and
  the product accumulated into the zero splat is the plain sum over the contracted coordinate, so at row p and
  column q of the block the stored value is  max (∑ k, x (p, k) · W (k, q) + b (0, q), 0).
-/
import proofs.«149347_j360777253399_1_alg».proof.Proof.Gen.KernelIdeal.Skeleton
import proofs.«149347_j360777253399_1_alg».proof.Proof.LibMatProd
import Idealize.ShloMosaic.Lib.Pipeline.Value
import Idealize.ShloMosaic.Lib.ValueIdx
import Idealize.ShloMosaic.Lib.ValueLayout

noncomputable section

namespace Cert.KernelIdeal.RegionValue.Relu

open Cert.KernelIdeal Cert.KernelIdeal.Gen Idealize.ShloMosaic Idealize.ShloMosaic.ValueIdx

/-- The block's product with the weights, operands rounded to the narrower format, at (p, q). -/
theorem blockProd_apply (x : FVec Ideal S5000x128 .f32) (W : FVec Ideal S128x128 .f32) (p : Fin 5000) (q : Fin 128) :
    matmul dot_S5000x128_S128x128_S5000x128_1_0_0_1_n_n none (truncf .bf16 x bitsLt_bf16_f32)
        (truncf .bf16 W bitsLt_bf16_f32) (constant (F := Ideal) S5000x128 .f32 0x00000000#32) (ix2 p q)
      = ∑ k : Fin 128, x (ix2 p k) * W (ix2 k q) :=
  Cert.LibMatProd.matmul_trunc_apply dot_S5000x128_S128x128_S5000x128_1_0_0_1_n_n rfl rfl rfl rfl rfl rfl
    bitsLt_bf16_f32 x W (ix2 p q)

/-- The bias row laid down the block's 5000 rows, at (p, q): the row's entry at column q. -/
theorem biasBlock_apply (b : FVec Ideal S1x128 .f32) (p : Fin 5000) (q : Fin 128) :
    broadcastTo S5000x128 b broadcasts_S1x128_S5000x128 (ix2 p q) = b (ix2 (0 : Fin 1) q) :=
  broadcastTo_1b_ab_apply b broadcasts_S1x128_S5000x128 p q

/-- The first and third layers' stored value at (p, q). -/
theorem k0_pay1_apply (x : Vec Ideal S5000x128 .f32) (W : Vec Ideal S128x128 .f32) (b : Vec Ideal S1x128 .f32)
    (p : Fin 5000) (q : Fin 128) :
    k0_pay1 (F := Ideal) x W b (ix2 p q)
      = max ((∑ k : Fin 128, x (ix2 p k) * W (ix2 k q)) + b (ix2 (0 : Fin 1) q)) (Ideal.ofBits .f32 0x00000000#32) := by
  unfold k0_pay1
  rw [shapeCast_self, shapeCast_self, maximumf_apply, addf_apply, blockProd_apply, biasBlock_apply]
  rfl

/-- The third layer's body is the first layer's. -/
theorem k2_pay1_eq (x : Vec Ideal S5000x128 .f32) (W : Vec Ideal S128x128 .f32) (b : Vec Ideal S1x128 .f32) :
    k2_pay1 (F := Ideal) x W b = k0_pay1 (F := Ideal) x W b := rfl

/-- The second layer's stored value at (p, q): the same, of the sum of its two blocks. -/
theorem k1_pay1_apply (x0 x1 : Vec Ideal S5000x128 .f32) (W : Vec Ideal S128x128 .f32) (b : Vec Ideal S1x128 .f32)
    (p : Fin 5000) (q : Fin 128) :
    k1_pay1 (F := Ideal) x0 x1 W b (ix2 p q)
      = max ((∑ k : Fin 128, (x0 (ix2 p k) + x1 (ix2 p k)) * W (ix2 k q)) + b (ix2 (0 : Fin 1) q))
          (Ideal.ofBits .f32 0x00000000#32) := by
  unfold k1_pay1
  rw [shapeCast_self, shapeCast_self, shapeCast_self, maximumf_apply, addf_apply, blockProd_apply, biasBlock_apply]
  rfl

end Cert.KernelIdeal.RegionValue.Relu

end
-- ==== Proof.RegionRelu.lean ====
/-
  The three rectified layers, from blocks to whole arrays.

  Each layer's region runs its body at ten grid points.  At point t the row-blocked windows hold rows
  5000 t … 5000 t + 4999 of their arrays and the weight and bias windows hold their whole arrays, and the body stores
  max (x · W + b, 0) of what it loaded into the output's block, which is written back to the same rows of the output
  array.  So at row r = 5000 t + p and column q the output array ends holding
  max (∑ k, x (r, k) · W (k, q) + b (0, q), 0), which is the layer `linRelu` of the whole arrays at (r, q);
  the ten blocks cover the 50000 rows, the point covering row r being r / 5000.
-/
import proofs.«149347_j360777253399_1_alg».proof.Proof.Gen.KernelIdeal.Frame
import proofs.«149347_j360777253399_1_alg».proof.Proof.Layers
import proofs.«149347_j360777253399_1_alg».proof.Proof.RegionReluSpec
import proofs.«149347_j360777253399_1_alg».proof.Proof.RegionReluPayload
import Idealize.ShloMosaic.Lib.Pipeline.Value
import Idealize.ShloMosaic.Lib.ValueIdx

noncomputable section
namespace Cert.KernelIdeal.RegionValue
open Cert.KernelIdeal Cert.KernelIdeal.Gen Idealize.ShloMosaic Idealize.ShloMosaic.TcCoe Idealize.SL.Sem
open Idealize.ShloMosaic.ValueIdx
open Idealize.ShloMosaic.Pipeline (Dat)

namespace Relu

/-- The zero offsets of a whole-block access, however spelt. -/
theorem hz : (![0, 0] : Fin 2 → Nat) = fun _ => 0 := funext fun a => by fin_cases a <;> rfl

/-! ## One grid point: the stored block is the layer's rows -/

/-- If a 5000 × 128 block x holds rows 5000 n … of X, and W and b are the whole weights and bias, the body's stored
    value at an entry of the block is the layer of the whole arrays at the entry n blocks further down. -/
theorem point_eq (X : FVec Ideal S50000x128 .f32) (Wa : FVec Ideal S128x128 .f32) (ba : FVec Ideal S1x128 .f32)
    (x : Vec Ideal S5000x128 .f32) (W : Vec Ideal S128x128 .f32) (b : Vec Ideal S1x128 .f32) (n : Nat)
    (hx : ∀ (y : S5000x128.Idx) (k : S50000x128.Idx), (k 0).val = 5000 * n + (y 0).val → (k 1).val = (y 1).val → x y = X k)
    (hW : ∀ y, W y = Wa y) (hb : ∀ y, b y = ba y)
    (j : S5000x128.Idx) (i : S50000x128.Idx) (hi0 : (i 0).val = 5000 * n + (j 0).val) (hi1 : (i 1).val = (j 1).val) :
    k0_pay1 (F := Ideal) x W b j = Cert.Bridge.linRelu X Wa ba i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hi1
  rw [k0_pay1_apply, linRelu_apply, hb]
  refine congrArg₂ max (congrArg₂ (· + ·) ?_ rfl) rfl
  refine Finset.sum_congr rfl fun k _ => ?_
  rw [hx (ix2 p k) (ix2 r k) hi0 rfl, hW]

/-- The same for the second layer's body, which first adds its two blocks. -/
theorem point_eq_sum (X0 X1 : FVec Ideal S50000x128 .f32) (Wa : FVec Ideal S128x128 .f32) (ba : FVec Ideal S1x128 .f32)
    (x0 x1 : Vec Ideal S5000x128 .f32) (W : Vec Ideal S128x128 .f32) (b : Vec Ideal S1x128 .f32) (n : Nat)
    (hx0 : ∀ (y : S5000x128.Idx) (k : S50000x128.Idx), (k 0).val = 5000 * n + (y 0).val → (k 1).val = (y 1).val → x0 y = X0 k)
    (hx1 : ∀ (y : S5000x128.Idx) (k : S50000x128.Idx), (k 0).val = 5000 * n + (y 0).val → (k 1).val = (y 1).val → x1 y = X1 k)
    (hW : ∀ y, W y = Wa y) (hb : ∀ y, b y = ba y)
    (j : S5000x128.Idx) (i : S50000x128.Idx) (hi0 : (i 0).val = 5000 * n + (j 0).val) (hi1 : (i 1).val = (j 1).val) :
    k1_pay1 (F := Ideal) x0 x1 W b j = Cert.Bridge.linRelu (addf X0 X1) Wa ba i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hi1
  rw [k1_pay1_apply, linRelu_apply, hb]
  refine congrArg₂ max (congrArg₂ (· + ·) ?_ rfl) rfl
  refine Finset.sum_congr rfl fun k _ => ?_
  rw [hx0 (ix2 p k) (ix2 r k) hi0 rfl, hx1 (ix2 p k) (ix2 r k) hi0 rfl, hW, addf_apply]

variable (V : (c : Dev nD) → (b : Ref sig .tc) → Buf (Elt Ideal) ((c : Thread nD τ).loc b))

/-! ## Layer one (region 0) -/

/-- The printed index maps of region 0, decided over the ten points: a row-blocked window's block index is the point
    on the rows and 0 on the columns, a whole-array window's is 0 on both. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Window 0's block at point t is rows 5000 t … 5000 t + 4999 of its array. -/
theorem iblk0_0_apply (c : Dev nD) (t : Fin cfg0.N) (y : S5000x128.Idx) (k : S50000x128.Idx)
    (hk0 : (k 0).val = 5000 * t.val + (y 0).val) (hk1 : (k 1).val = (y 1).val) :
    (iblk0 V c 0 t : Vec Ideal S5000x128 .f32) y = (V c main_v19 : S50000x128.Idx → Elt Ideal .f32) k := by
  obtain ⟨e0, e1, -, -, -, -, -, -⟩ := idx0 t
  unfold iblk0
  rw [View.read_apply]
  show V c main_v19 _ = V c main_v19 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- Window 1's block at every point is its whole array. -/
theorem iblk0_1_apply (c : Dev nD) (t : Fin cfg0.N) (y : S128x128.Idx) :
    (iblk0 V c 1 t : Vec Ideal S128x128 .f32) y = (V c main_arg3 : S128x128.Idx → Elt Ideal .f32) y := by
  obtain ⟨-, -, e2, e3, -, -, -, -⟩ := idx0 t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- Window 2's block at every point is its whole array. -/
theorem iblk0_2_apply (c : Dev nD) (t : Fin cfg0.N) (y : S1x128.Idx) :
    (iblk0 V c 2 t : Vec Ideal S1x128 .f32) y = (V c main_v20 : S1x128.Idx → Elt Ideal .f32) y := by
  obtain ⟨-, -, -, -, e4, e5, -, -⟩ := idx0 t
  unfold iblk0
  rw [View.read_apply]
  show V c main_v20 _ = V c main_v20 _
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- What point t writes back is block t of the layer of the whole arrays. -/
theorem flushed0_eq (c : Dev nD) (t : Fin cfg0.N) :
    (dat0 (F := Ideal) V c).flushed 3 t
      = ((cfg0.win 3).blk t).view.read (Elt Ideal)
          (Cert.Bridge.linRelu (V c main_v19) (V c main_arg3) (V c main_v20)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨-, -, -, -, -, -, e6, e7⟩ := idx0 t
  funext j
  show k0_pay1 (F := Ideal) (iblk0 V c 0 t) (iblk0 V c 1 t) (iblk0 V c 2 t) j
    = Cert.Bridge.linRelu (V c main_v19) (V c main_arg3) (V c main_v20) (((cfg0.win 3).blk t).view.emb j)
  refine point_eq _ _ _ _ _ _ t.val
      (fun y k h0 h1 => iblk0_0_apply V c t y k h0 h1)
      (fun y => iblk0_1_apply V c t y) (fun y => iblk0_2_apply V c t y) j _ ?_ ?_
  · show win0_3.index t (0 : Fin 2) * 5000 + 1 * (j 0).val = 5000 * t.val + (j 0).val; rw [e6]; omega
  · show win0_3.index t (1 : Fin 2) * 128 + 1 * (j 1).val = (j 1).val; rw [e7]; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- Every row of the output array is in the block of the point its row number divided by 5000 names. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, e6, e7⟩ := idx0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e7]
    omega

/-! ## Layer two (region 1) -/

/-- The printed index maps of region 1, decided over the ten points: a row-blocked window's block index is the point
    on the rows and 0 on the columns, a whole-array window's is 0 on both. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Window 0's block at point t is rows 5000 t … 5000 t + 4999 of its array. -/
theorem iblk1_0_apply (c : Dev nD) (t : Fin cfg1.N) (y : S5000x128.Idx) (k : S50000x128.Idx)
    (hk0 : (k 0).val = 5000 * t.val + (y 0).val) (hk1 : (k 1).val = (y 1).val) :
    (iblk1 V c 0 t : Vec Ideal S5000x128 .f32) y = (V c main_v21 : S50000x128.Idx → Elt Ideal .f32) k := by
  obtain ⟨e0, e1, -, -, -, -, -, -, -, -⟩ := idx1 t
  unfold iblk1
  rw [View.read_apply]
  show V c main_v21 _ = V c main_v21 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- Window 1's block at point t is rows 5000 t … 5000 t + 4999 of its array. -/
theorem iblk1_1_apply (c : Dev nD) (t : Fin cfg1.N) (y : S5000x128.Idx) (k : S50000x128.Idx)
    (hk0 : (k 0).val = 5000 * t.val + (y 0).val) (hk1 : (k 1).val = (y 1).val) :
    (iblk1 V c 1 t : Vec Ideal S5000x128 .f32) y = (V c main_v31 : S50000x128.Idx → Elt Ideal .f32) k := by
  obtain ⟨-, -, e2, e3, -, -, -, -, -, -⟩ := idx1 t
  unfold iblk1
  rw [View.read_apply]
  show V c main_v31 _ = V c main_v31 _
  congr 1
  funext a
  apply Fin.ext
  match a with
  | ⟨0, _⟩ => show win1_1.index t (0 : Fin 2) * 5000 + 1 * (y 0).val = (k 0).val; rw [e2, hk0]; omega
  | ⟨1, _⟩ => show win1_1.index t (1 : Fin 2) * 128 + 1 * (y 1).val = (k 1).val; rw [e3, hk1]; omega

/-- Window 2's block at every point is its whole array. -/
theorem iblk1_2_apply (c : Dev nD) (t : Fin cfg1.N) (y : S128x128.Idx) :
    (iblk1 V c 2 t : Vec Ideal S128x128 .f32) y = (V c main_arg5 : S128x128.Idx → Elt Ideal .f32) y := by
  obtain ⟨-, -, -, -, e4, e5, -, -, -, -⟩ := idx1 t
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- Window 3's block at every point is its whole array. -/
theorem iblk1_3_apply (c : Dev nD) (t : Fin cfg1.N) (y : S1x128.Idx) :
    (iblk1 V c 3 t : Vec Ideal S1x128 .f32) y = (V c main_v32 : S1x128.Idx → Elt Ideal .f32) y := by
  obtain ⟨-, -, -, -, -, -, e6, e7, -, -⟩ := idx1 t
  unfold iblk1
  rw [View.read_apply]
  show V c main_v32 _ = V c main_v32 _
  congr 1
  funext a
  apply Fin.ext
  match a with
  | ⟨0, _⟩ => show win1_3.index t (0 : Fin 2) * 1 + 1 * (y 0).val = (y 0).val; rw [e6]; omega
  | ⟨1, _⟩ => show win1_3.index t (1 : Fin 2) * 128 + 1 * (y 1).val = (y 1).val; rw [e7]; omega

/-- What point t writes back is block t of the layer of the whole arrays. -/
theorem flushed1_eq (c : Dev nD) (t : Fin cfg1.N) :
    (dat1 (F := Ideal) V c).flushed 4 t
      = ((cfg1.win 4).blk t).view.read (Elt Ideal)
          (Cert.Bridge.linRelu (addf (V c main_v21 : FVec Ideal S50000x128 .f32) (V c main_v31 : FVec Ideal S50000x128 .f32)) (V c main_arg5) (V c main_v32)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨-, -, -, -, -, -, -, -, e8, e9⟩ := idx1 t
  funext j
  show k1_pay1 (F := Ideal) (iblk1 V c 0 t) (iblk1 V c 1 t) (iblk1 V c 2 t) (iblk1 V c 3 t) j
    = Cert.Bridge.linRelu (addf (V c main_v21 : FVec Ideal S50000x128 .f32) (V c main_v31 : FVec Ideal S50000x128 .f32)) (V c main_arg5) (V c main_v32) (((cfg1.win 4).blk t).view.emb j)
  refine point_eq_sum _ _ _ _ _ _ _ _ t.val
      (fun y k h0 h1 => iblk1_0_apply V c t y k h0 h1)
      (fun y k h0 h1 => iblk1_1_apply V c t y k h0 h1)
      (fun y => iblk1_2_apply V c t y) (fun y => iblk1_3_apply V c t y) j _ ?_ ?_
  · show win1_4.index t (0 : Fin 2) * 5000 + 1 * (j 0).val = 5000 * t.val + (j 0).val; rw [e8]; omega
  · show win1_4.index t (1 : Fin 2) * 128 + 1 * (j 1).val = (j 1).val; rw [e9]; omega

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v33).slice (win1_4.rect t)).set ↔ _
  rw [View.set_slice_whole, Rect.mem_set_unit]
  exact Iff.rfl

/-- Every row of the output array is in the block of the point its row number divided by 5000 names. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, e8, e9⟩ := idx1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e9]
    omega

/-! ## Layer three (region 2) -/

/-- The printed index maps of region 2, decided over the ten points: a row-blocked window's block index is the point
    on the rows and 0 on the columns, a whole-array window's is 0 on both. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Window 0's block at point t is rows 5000 t … 5000 t + 4999 of its array. -/
theorem iblk2_0_apply (c : Dev nD) (t : Fin cfg2.N) (y : S5000x128.Idx) (k : S50000x128.Idx)
    (hk0 : (k 0).val = 5000 * t.val + (y 0).val) (hk1 : (k 1).val = (y 1).val) :
    (iblk2 V c 0 t : Vec Ideal S5000x128 .f32) y = (V c main_v45 : S50000x128.Idx → Elt Ideal .f32) k := by
  obtain ⟨e0, e1, -, -, -, -, -, -⟩ := idx2 t
  unfold iblk2
  rw [View.read_apply]
  show V c main_v45 _ = V c main_v45 _
  congr 1
  funext a
  apply Fin.ext
  match a with
  | ⟨0, _⟩ => show win2_0.index t (0 : Fin 2) * 5000 + 1 * (y 0).val = (k 0).val; rw [e0, hk0]; omega
  | ⟨1, _⟩ => show win2_0.index t (1 : Fin 2) * 128 + 1 * (y 1).val = (k 1).val; rw [e1, hk1]; omega

/-- Window 1's block at every point is its whole array. -/
theorem iblk2_1_apply (c : Dev nD) (t : Fin cfg2.N) (y : S128x128.Idx) :
    (iblk2 V c 1 t : Vec Ideal S128x128 .f32) y = (V c main_arg7 : S128x128.Idx → Elt Ideal .f32) y := by
  obtain ⟨-, -, e2, e3, -, -, -, -⟩ := idx2 t
  unfold iblk2
  rw [View.read_apply]
  show V c main_arg7 _ = V c main_arg7 _
  congr 1
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- Window 2's block at every point is its whole array. -/
theorem iblk2_2_apply (c : Dev nD) (t : Fin cfg2.N) (y : S1x128.Idx) :
    (iblk2 V c 2 t : Vec Ideal S1x128 .f32) y = (V c main_v46 : S1x128.Idx → Elt Ideal .f32) y := by
  obtain ⟨-, -, -, -, e4, e5, -, -⟩ := idx2 t
  unfold iblk2
  rw [View.read_apply]
  show V c main_v46 _ = V c main_v46 _
  congr 1
  funext a
  apply Fin.ext
  match a with
  | ⟨0, _⟩ => show win2_2.index t (0 : Fin 2) * 1 + 1 * (y 0).val = (y 0).val; rw [e4]; omega
  | ⟨1, _⟩ => show win2_2.index t (1 : Fin 2) * 128 + 1 * (y 1).val = (y 1).val; rw [e5]; omega

/-- What point t writes back is block t of the layer of the whole arrays. -/
theorem flushed2_eq (c : Dev nD) (t : Fin cfg2.N) :
    (dat2 (F := Ideal) V c).flushed 3 t
      = ((cfg2.win 3).blk t).view.read (Elt Ideal)
          (Cert.Bridge.linRelu (V c main_v45) (V c main_arg7) (V c main_v46)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨-, -, -, -, -, -, e6, e7⟩ := idx2 t
  funext j
  show k2_pay1 (F := Ideal) (iblk2 V c 0 t) (iblk2 V c 1 t) (iblk2 V c 2 t) j
    = Cert.Bridge.linRelu (V c main_v45) (V c main_arg7) (V c main_v46) (((cfg2.win 3).blk t).view.emb j)
  rw [k2_pay1_eq]
  refine point_eq _ _ _ _ _ _ t.val
      (fun y k h0 h1 => iblk2_0_apply V c t y k h0 h1)
      (fun y => iblk2_1_apply V c t y) (fun y => iblk2_2_apply V c t y) j _ ?_ ?_
  · show win2_3.index t (0 : Fin 2) * 5000 + 1 * (j 0).val = 5000 * t.val + (j 0).val; rw [e6]; omega
  · show win2_3.index t (1 : Fin 2) * 128 + 1 * (j 1).val = (j 1).val; rw [e7]; omega

/-- An index of the output array is in point t's block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v47).slice (win2_3.rect t)).set ↔ _
  rw [View.set_slice_whole, Rect.mem_set_unit]
  exact Iff.rfl

/-- Every row of the output array is in the block of the point its row number divided by 5000 names. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, e6, e7⟩ := idx2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, hlt⟩ (1 : Fin 2) * 128 ≤ (i 1).val
      ∧ (i 1).val < win2_3.index ⟨(i 0).val / 5000, hlt⟩ (1 : Fin 2) * 128 + 128
    rw [e7]
    omega

end Relu

/-! ## The three output arrays -/

variable (V : (c : Dev nD) → (b : Ref sig .tc) → Buf (Elt Ideal) ((c : Thread nD τ).loc b))

/-- The output array after the region: the layer of the arrays the region found. -/
theorem final0 (c : Dev nD) :
    (dat0 (F := Ideal) V c).arrAt 3 cfg0.N
      = Cert.Bridge.linRelu (V c main_v19) (V c main_arg3) (V c main_v20) :=
  (dat0 (F := Ideal) V c).arrAt_eq_of_cover 3 _ (fun t _ => Relu.flushed0_eq V c t) Relu.cover0

/-- The output array after the region: the layer of the arrays the region found. -/
theorem final1 (c : Dev nD) :
    (dat1 (F := Ideal) V c).arrAt 4 cfg1.N
      = Cert.Bridge.linRelu (addf (V c main_v21 : FVec Ideal S50000x128 .f32) (V c main_v31 : FVec Ideal S50000x128 .f32)) (V c main_arg5) (V c main_v32) :=
  (dat1 (F := Ideal) V c).arrAt_eq_of_cover 4 _ (fun t _ => Relu.flushed1_eq V c t) Relu.cover1

/-- The output array after the region: the layer of the arrays the region found. -/
theorem final2 (c : Dev nD) :
    (dat2 (F := Ideal) V c).arrAt 3 cfg2.N
      = Cert.Bridge.linRelu (V c main_v45) (V c main_arg7) (V c main_v46) :=
  (dat2 (F := Ideal) V c).arrAt_eq_of_cover 3 _ (fun t _ => Relu.flushed2_eq V c t) Relu.cover2

end Cert.KernelIdeal.RegionValue
end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«149347_j360777253399_1_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.RegionOutRow.lean ====
/-
  One row of a log-softmax on the extended reals.

  For a row u of n extended reals: its top is the maximum of its entries, folded from −∞ and joined with −∞ once
  more; the row's log-softmax at column q is (u q − top) − log (∑ j, exp (u j − top)).  The word 0xFF800000 is the
  float −∞; it is carried as the word it is and never evaluated.
-/
import Idealize.ShloMosaic.PureOps.Ideal

noncomputable section

namespace Cert.KernelIdeal.RegionValue

open Idealize.ShloMosaic

/-- The maximum of a row's entries, folded from −∞ and joined with −∞ once more. -/
def rowTop {n : ℕ} (u : Fin n → EReal) : EReal :=
  max (Ideal.ofBits .f32 0xFF800000#32)
    ((Finset.univ : Finset (Fin n)).fold max (Ideal.ofBits .f32 0xFF800000#32) u)

/-- A row's log-softmax at column q: the entry minus the row's top, minus the logarithm of the sum of the
    exponentials of the shifted row. -/
def rowLsm {n : ℕ} (u : Fin n → EReal) (q : Fin n) : EReal :=
  (u q - rowTop u) - Ideal.log (∑ j : Fin n, Ideal.exp (u j - rowTop u))

end Cert.KernelIdeal.RegionValue

end
-- ==== Proof.RegionOutPay.lean ====
/-
  The output layer on one block, read entry by entry.

  On a block of 5000 rows the body adds its two 5000 × 128 inputs, multiplies the sum by the 128 × 47 weight
  (both operands rounded to a narrower float format, which on the extended reals changes nothing; the product is
  accumulated into zero), adds the bias row to every row, and takes each row's log-softmax: the row's maximum
  (folded from −∞ and joined with −∞ again) is subtracted, and then the logarithm of the sum of the exponentials
  of the shifted row.  At entry (p, q) this is the log-softmax, at column q, of the row
  j ↦ ∑ k, (x0 (p, k) + x1 (p, k)) · W (k, j) + b (0, j).
-/
import proofs.«149347_j360777253399_1_alg».proof.Proof.Gen.KernelIdeal.Skeleton
import proofs.«149347_j360777253399_1_alg».proof.Proof.LibMatProd
import proofs.«149347_j360777253399_1_alg».proof.Proof.LibRows
import proofs.«149347_j360777253399_1_alg».proof.Proof.RegionOutRow
import Idealize.ShloMosaic.Lib.ValueLayout

noncomputable section

namespace Cert.KernelIdeal.RegionValue

open Cert.KernelIdeal Cert.KernelIdeal.Gen Idealize.ShloMosaic Idealize.ShloMosaic.ValueIdx

/-- The block's linear layer: (x0 + x1) · W + b, the bias row laid under every row. -/
def blkLin (x0 x1 : Vec Ideal S5000x128 .f32) (W : Vec Ideal S128x47 .f32) (b : Vec Ideal S1x47 .f32) :
    FVec Ideal S5000x47 .f32 :=
  addf
    (matmul dot_S5000x128_S128x47_S5000x47_1_0_0_1_n_n none
      (truncf .bf16 (addf (shapeCast S5000x128 x0 shapeCasts_S5000x128_S5000x128)
        (shapeCast S5000x128 x1 shapeCasts_S5000x128_S5000x128)) bitsLt_bf16_f32)
      (truncf .bf16 W bitsLt_bf16_f32) (constant S5000x47 .f32 0x00000000#32))
    (broadcastTo S5000x47 (shapeCast S1x47 b shapeCasts_S1x47_S1x47) broadcasts_S1x47_S5000x47)

/-- Each row's top: its maximum folded from −∞, joined with −∞ again. -/
def blkTop (y : FVec Ideal S5000x47 .f32) : FVec Ideal S5000 .f32 :=
  maximumf (broadcast S5000 (Scalar.ofBits .f32 0xFF800000#32))
    (multiReduction .maximumf [1] S5000 y 0xFF800000#32 reduces_S5000x47_S5000 (.inl rfl) rfl)

/-- The block with each row's top subtracted. -/
def blkShift (y : FVec Ideal S5000x47 .f32) : FVec Ideal S5000x47 .f32 :=
  subf y (broadcastTo S5000x47 (shapeCast S5000x1 (blkTop y) shapeCasts_S5000_S5000x1) broadcasts_S5000x1_S5000x47)

/-- The block's row-wise log-softmax. -/
def blkLsm (y : FVec Ideal S5000x47 .f32) : FVec Ideal S5000x47 .f32 :=
  subf (blkShift y)
    (broadcastTo S5000x47
      (log (shapeCast S5000x1
        (multiReduction .add [1] S5000 (exp (blkShift y)) 0x00000000#32 reduces_S5000x47_S5000 (.inl rfl) rfl)
        shapeCasts_S5000_S5000x1))
      broadcasts_S5000x1_S5000x47)

/-- The body's stored value is the row-wise log-softmax of the block's linear layer. -/
theorem pay_eq (x0 x1 : Vec Ideal S5000x128 .f32) (W : Vec Ideal S128x47 .f32) (b : Vec Ideal S1x47 .f32) :
    k3_pay1 (F := Ideal) x0 x1 W b = blkLsm (blkLin x0 x1 W b) := rfl

/-- The linear layer at (p, j): row p of x0 + x1 against column j of W, plus the bias at j. -/
theorem blkLin_apply (x0 x1 : Vec Ideal S5000x128 .f32) (W : Vec Ideal S128x47 .f32) (b : Vec Ideal S1x47 .f32)
    (p : Fin 5000) (j : Fin 47) :
    blkLin x0 x1 W b (ix2 p j)
      = (∑ k : Fin 128, (x0 (ix2 p k) + x1 (ix2 p k)) * W (ix2 k j)) + b (ix2 (0 : Fin 1) j) := by
  unfold blkLin
  rw [shapeCast_self, shapeCast_self, shapeCast_self]
  refine congrArg₂ (· + ·) ?_ ?_
  · exact Cert.LibMatProd.matmul_trunc_apply dot_S5000x128_S128x47_S5000x47_1_0_0_1_n_n rfl rfl rfl rfl rfl rfl
      bitsLt_bf16_f32 (addf x0 x1) W (ix2 p j)
  · exact broadcastTo_1b_ab_apply b broadcasts_S1x47_S5000x47 p j

/-- A row's top on the block is the top of that row. -/
theorem blkTop_apply (y : FVec Ideal S5000x47 .f32) (p : Fin 5000) :
    blkTop y (ix1 p) = rowTop (fun j : Fin 47 => y (ix2 p j)) := by
  unfold blkTop rowTop
  refine congrArg₂ max rfl ?_
  exact Cert.LibRows.rowMaxf_apply y 0xFF800000#32 reduces_S5000x47_S5000 (.inl rfl) rfl p

/-- The shifted block at (p, q): the entry minus its row's top. -/
theorem blkShift_apply (y : FVec Ideal S5000x47 .f32) (p : Fin 5000) (q : Fin 47) :
    blkShift y (ix2 p q) = y (ix2 p q) - rowTop (fun j : Fin 47 => y (ix2 p j)) := by
  unfold blkShift
  refine congrArg₂ (· - ·) rfl ?_
  exact (Cert.LibRows.column_apply (blkTop y) shapeCasts_S5000_S5000x1 broadcasts_S5000x1_S5000x47 p q).trans
    (blkTop_apply y p)

/-- The block's log-softmax at (p, q) is the log-softmax of row p at column q. -/
theorem blkLsm_apply (y : FVec Ideal S5000x47 .f32) (p : Fin 5000) (q : Fin 47) :
    blkLsm y (ix2 p q) = rowLsm (fun j : Fin 47 => y (ix2 p j)) q := by
  unfold blkLsm rowLsm
  refine congrArg₂ (· - ·) (blkShift_apply y p q) ?_
  refine (Cert.LibColumn.broadcastTo_a1_ab_apply _ broadcasts_S5000x1_S5000x47 p q).trans ?_
  refine congrArg Ideal.log ?_
  refine (Cert.LibColumn.shapeCast_a_a1_apply _ shapeCasts_S5000_S5000x1 p 0).trans ?_
  refine (Cert.LibRows.rowSum_apply (exp (blkShift y)) 0x00000000#32 reduces_S5000x47_S5000 (.inl rfl) rfl p).trans ?_
  exact Finset.sum_congr rfl fun k _ => congrArg Ideal.exp (blkShift_apply y p k)

/-- The body's stored value at (p, q): the log-softmax, at column q, of row p of (x0 + x1) · W + b. -/
theorem pay_apply (x0 x1 : Vec Ideal S5000x128 .f32) (W : Vec Ideal S128x47 .f32) (b : Vec Ideal S1x47 .f32)
    (p : Fin 5000) (q : Fin 47) :
    k3_pay1 (F := Ideal) x0 x1 W b (ix2 p q)
      = rowLsm (fun j : Fin 47 =>
          (∑ k : Fin 128, (x0 (ix2 p k) + x1 (ix2 p k)) * W (ix2 k j)) + b (ix2 (0 : Fin 1) j)) q := by
  rw [pay_eq, blkLsm_apply]
  exact congrArg (fun u : Fin 47 → EReal => rowLsm u q) (funext fun j => blkLin_apply x0 x1 W b p j)

end Cert.KernelIdeal.RegionValue

end
-- ==== Proof.RegionOutSpec.lean ====
/-
  The output layer of the specification, read entry by entry.

  The whole-array function takes x · W, adds the bias row to every row, and takes each row's log-softmax with
  the host operations: the row maximum (a fold of max from −∞, joined with −∞ again) is laid back across the
  row as a 50000 × 1 column repeated over the 47 columns and subtracted; the exponentials of the shifted row are
  summed from 0, the logarithm of that sum is laid back the same way and subtracted.  At entry (r, q) this is the
  log-softmax, at column q, of the row j ↦ ∑ k, x (r, k) · W (k, j) + b (0, j).
-/
import proofs.«149347_j360777253399_1_alg».proof.Proof.Layers
import proofs.«149347_j360777253399_1_alg».proof.Proof.LibDot
import proofs.«149347_j360777253399_1_alg».proof.Proof.LibRows
import proofs.«149347_j360777253399_1_alg».proof.Proof.RegionOutRow
import Idealize.ShloMosaic.Lib.Pipeline.Value
import Idealize.ShloMosaic.Lib.ValueIdx
import Idealize.ShloMosaic.PureOps.Ideal.Laws

noncomputable section

namespace Cert.Bridge

open Cert.ReferenceIdeal Cert.ReferenceIdeal.Gen Idealize.ShloMosaic Idealize.ShloMosaic.ValueIdx
open Cert.KernelIdeal.RegionValue (rowTop rowLsm)

/-- Dropping the second axis of a 50000 × 47 array leaves the 50000 rows. -/
theorem reducesRows47 : S50000x47.Reduces [1] S50000 := by decide

/-- The float zero word added in front of a sum changes nothing. -/
theorem zeroWord_add (s : EReal) : Ideal.ofBits .f32 0x00000000#32 + s = s := by
  rw [Ideal.ofBits_zero_f32, zero_add]

/-- The bias row repeated down the rows reads, at (r, j), the bias at j. -/
theorem biasRows_apply {α : Type} (b : S1x47.Idx → α) (r : Fin 50000) (j : Fin 47) :
    broadcastInDim S50000x47 ![0, 1] bcast_S1x47_S50000x47_0_1 b (ix2 r j) = b (ix2 (0 : Fin 1) j) :=
  broadcastInDim_apply _ bcast_S1x47_S50000x47_0_1 b (ix2 r j) (ix2 (0 : Fin 1) j) (fun a => match a with
    | ⟨0, _⟩ => by show 0 = if (1 : Nat) = 1 then 0 else r.val; rw [if_pos rfl]
    | ⟨1, _⟩ => by show j.val = if (47 : Nat) = 1 then 0 else j.val; rw [if_neg (by decide)])

/-- One value per row as a 50000 × 1 column reads, at (r, 0), the value of row r. -/
theorem toColumn_apply {α : Type} (v : S50000.Idx → α) (r : Fin 50000) :
    broadcastInDim S50000x1 ![0] bcast_S50000_S50000x1_0 v (ix2 r (0 : Fin 1)) = v (ix1 r) :=
  broadcastInDim_apply _ bcast_S50000_S50000x1_0 v (ix2 r (0 : Fin 1)) (ix1 r) (fun a => match a with
    | ⟨0, _⟩ => by show r.val = if (50000 : Nat) = 1 then 0 else r.val; rw [if_neg (by decide)])

/-- A 50000 × 1 column repeated over the 47 columns reads, at (r, q), the column's entry of row r. -/
theorem acrossColumns_apply {α : Type} (v : S50000x1.Idx → α) (r : Fin 50000) (q : Fin 47) :
    broadcastInDim S50000x47 ![0, 1] bcast_S50000x1_S50000x47_0_1 v (ix2 r q) = v (ix2 r (0 : Fin 1)) :=
  broadcastInDim_apply _ bcast_S50000x1_S50000x47_0_1 v (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- x · W + b at (r, j): row r of x against column j of W, plus the bias at j. -/
theorem linOut_apply (x : FVec Ideal S50000x128 .f32) (W : FVec Ideal S128x47 .f32) (b : FVec Ideal S1x47 .f32)
    (r : Fin 50000) (j : Fin 47) :
    linOut x W b (ix2 r j) = (∑ k : Fin 128, x (ix2 r k) * W (ix2 k j)) + b (ix2 (0 : Fin 1) j) := by
  unfold linOut
  refine congrArg₂ (· + ·) ?_ (biasRows_apply b r j)
  exact Cert.LibDot.dotGeneral_plain_apply dot_S50000x128_S128x47_S50000x47_1_0_0_1_n_n rfl rfl rfl rfl rfl rfl
    none .single x W (ix2 r j)

/-- The host's logarithm and exponential of an array, at an index: those of the entry. -/
theorem hostLog_apply {s : Shape} (v : FVec Ideal s .f32) (i : s.Idx) : Host.log (F := Ideal) v i = Ideal.log (v i) := rfl
theorem hostExp_apply {s : Shape} (v : FVec Ideal s .f32) (i : s.Idx) : Host.exp (F := Ideal) v i = Ideal.exp (v i) := rfl

/-- The host's maximum along the second axis of an a × b matrix from the start word c, read at row p: the fold of
    max over the row's entries from the value the word denotes. -/
theorem hostRowMax_apply {a b : ℕ} (x : FVec Ideal ⟨2, ![a, b]⟩ .f32) (c : BitVec 32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x (constant (F := Ideal) (⟨0, ![]⟩ : Shape) .f32 c) h' hu (ix1 p)
      = (Finset.univ : Finset (Fin b)).fold max (Ideal.ofBits .f32 c) (fun k => x (ix2 p k)) := by
  rw [Host.reduce_eq_fold_single FloatOps.maximumf x _ h' h hu]
  have hf : (x ∘ h.lift (ix1 p)) = fun k : Fin b => x (ix2 p k) :=
    funext fun k => congrArg x (Cert.LibRows.lift_row h p k)
  exact congrArg (fun f => Finset.fold max (Ideal.ofBits .f32 c) f (Finset.univ : Finset (Fin b))) hf

/-- The entrywise maximum of two arrays, at an index: the maximum of the two entries. -/
theorem maxf_apply {s : Shape} (x y : FVec Ideal s .f32) (i : s.Idx) : maximumf x y i = max (x i) (y i) := rfl

/-- The −∞ word repeated down the rows reads, at any row, the value the word denotes. -/
theorem negInfRows_apply (r : Fin 50000) :
    broadcastInDim S50000 ![] bcast_S_S50000 (constant (F := Ideal) S_ .f32 0xFF800000#32) (ix1 r)
      = Ideal.ofBits .f32 0xFF800000#32 :=
  broadcastInDim_apply _ bcast_S_S50000 (constant (F := Ideal) S_ .f32 0xFF800000#32) (ix1 r) (fun a => a.elim0)
    (fun a => a.elim0)

/-- The host's row maximum joined with −∞, at row r: the top of that row. -/
theorem rowsTop_apply (y : FVec Ideal S50000x47 .f32) (r : Fin 50000) :
    maximumf (broadcastInDim S50000 ![] bcast_S_S50000 (constant (F := Ideal) S_ .f32 0xFF800000#32))
        (Host.reduce FloatOps.maximumf y (constant (F := Ideal) S_ .f32 0xFF800000#32)
          reducesTo_S50000x47_S50000_d1 h_S_) (ix1 r)
      = rowTop (fun j : Fin 47 => y (ix2 r j)) := by
  unfold rowTop
  exact (maxf_apply _ _ (ix1 r)).trans (congrArg₂ max (negInfRows_apply r)
    (hostRowMax_apply y 0xFF800000#32 reducesTo_S50000x47_S50000_d1 reducesRows47 h_S_ r))

/-- The shifted array at (r, q): the entry minus its row's top. -/
theorem shiftRows_apply (y : FVec Ideal S50000x47 .f32) (r : Fin 50000) (q : Fin 47) :
    shiftRows y (ix2 r q) = y (ix2 r q) - rowTop (fun j : Fin 47 => y (ix2 r j)) := by
  unfold shiftRows
  refine congrArg₂ (· - ·) rfl ?_
  exact ((acrossColumns_apply _ r q).trans (toColumn_apply _ r)).trans (rowsTop_apply y r)

/-- The host's sum of a row from the zero word: the plain sum of the row. -/
theorem rowsSum_apply (v : FVec Ideal S50000x47 .f32) (r : Fin 50000) :
    Host.reduceAdd (F := Ideal) v (constant (F := Ideal) S_ .f32 0x00000000#32) reducesTo_S50000x47_S50000_d1 h_S_ (ix1 r)
      = ∑ k : Fin 47, v (ix2 r k) :=
  ((Ideal.hostReduceAdd_single reducesTo_S50000x47_S50000_d1 reducesRows47 v (Ideal.ofBits .f32 0x00000000#32) (ix1 r)).trans
    (zeroWord_add _)).trans
    (Finset.sum_congr rfl fun k _ => congrArg v (Cert.LibRows.lift_row reducesRows47 r k))

/-- The row-wise log-softmax at (r, q) is the log-softmax of row r at column q. -/
theorem logSoftmaxRows_apply (y : FVec Ideal S50000x47 .f32) (r : Fin 50000) (q : Fin 47) :
    logSoftmaxRows y (ix2 r q) = rowLsm (fun j : Fin 47 => y (ix2 r j)) q := by
  unfold logSoftmaxRows rowLsm
  refine congrArg₂ (· - ·) (shiftRows_apply y r q) ?_
  refine (acrossColumns_apply _ r q).trans ?_
  refine (hostLog_apply _ _).trans (congrArg Ideal.log ?_)
  refine (toColumn_apply _ r).trans ?_
  refine (rowsSum_apply (Host.exp (F := Ideal) (shiftRows y)) r).trans ?_
  exact Finset.sum_congr rfl fun k _ => (hostExp_apply _ _).trans (congrArg Ideal.exp (shiftRows_apply y r k))

/-- The output layer at (r, q): the log-softmax, at column q, of row r of x · W + b. -/
theorem linLogSoftmax_apply (x : FVec Ideal S50000x128 .f32) (W : FVec Ideal S128x47 .f32) (b : FVec Ideal S1x47 .f32)
    (r : Fin 50000) (q : Fin 47) :
    linLogSoftmax x W b (ix2 r q)
      = rowLsm (fun j : Fin 47 => (∑ k : Fin 128, x (ix2 r k) * W (ix2 k j)) + b (ix2 (0 : Fin 1) j)) q := by
  unfold linLogSoftmax
  rw [logSoftmaxRows_apply]
  exact congrArg (fun u : Fin 47 → EReal => rowLsm u q) (funext fun j => linOut_apply x W b r j)

end Cert.Bridge

end
-- ==== Proof.RegionOut.lean ====
/-
  The output region's array after the run: the output layer of the specification.

  The region walks the 50000 rows in ten blocks of 5000.  At point t the two row-blocked inputs' blocks are rows
  5000·t … 5000·t + 4999 of their arrays, the weight's and the bias's blocks are the whole arrays, and the body
  stores, into rows 5000·t … 5000·t + 4999 of the output, the row-wise log-softmax of (x0 + x1) · W + b on the
  block.  A row's log-softmax depends on that row only, so entry (p, q) of point t's block is entry
  (5000·t + p, q) of the whole-array function; row r is covered by point r / 5000, so the array ends holding the
  whole-array function.
-/
import proofs.«149347_j360777253399_1_alg».proof.Proof.Gen.KernelIdeal.Frame
import proofs.«149347_j360777253399_1_alg».proof.Proof.Layers
import proofs.«149347_j360777253399_1_alg».proof.Proof.RegionOutPay
import proofs.«149347_j360777253399_1_alg».proof.Proof.RegionOutSpec
import Idealize.ShloMosaic.Lib.Pipeline.Value

noncomputable section
namespace Cert.KernelIdeal.RegionValue
open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- The zero offsets of a whole-block access, however spelt. -/
theorem zeroOffsets : (![0, 0] : Fin 2 → Nat) = fun _ => 0 := funext fun a => by fin_cases a <;> rfl

/-- Entry (p, q) of a block's stored value is entry (r, q) of the whole-array output layer, when row p of each
    row-blocked input block is row r of its array and the weight and bias blocks are the whole arrays: both are
    the log-softmax of the same row. -/
theorem entry_eq (X0 X1 : FVec Ideal S50000x128 .f32) (Wt : FVec Ideal S128x47 .f32) (bs : FVec Ideal S1x47 .f32)
    (x0 x1 : Vec Ideal S5000x128 .f32) (w : Vec Ideal S128x47 .f32) (b : Vec Ideal S1x47 .f32)
    (p : Fin 5000) (q : Fin 47) (r : Fin 50000)
    (h0 : ∀ k : Fin 128, x0 (ValueIdx.ix2 p k) = X0 (ValueIdx.ix2 r k))
    (h1 : ∀ k : Fin 128, x1 (ValueIdx.ix2 p k) = X1 (ValueIdx.ix2 r k))
    (hw : w = Wt) (hb : b = bs) :
    k3_pay1 (F := Ideal) x0 x1 w b (ValueIdx.ix2 p q)
      = Cert.Bridge.linLogSoftmax (addf X0 X1) Wt bs (ValueIdx.ix2 r q) := by
  subst hw hb
  rw [pay_apply, Cert.Bridge.linLogSoftmax_apply]
  refine congrArg (fun u : Fin 47 → EReal => rowLsm u q) (funext fun j => ?_)
  refine congrArg (· + b (ValueIdx.ix2 (0 : Fin 1) j)) (Finset.sum_congr rfl fun k _ => ?_)
  rw [h0 k, h1 k]
  rfl

/-- The printed index maps over the ten points: the row-blocked windows sit at block row t, the weight and the
    bias at block (0, 0). -/
theorem blockIndices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ t.val < 10 :=
  (by decide +kernel : ∀ t : Fin grid3.N, _)

/-- The whole-array output layer of the arrays the region finds. -/
abbrev outLayer (c : Dev nD) : FVec Ideal S50000x47 .f32 :=
  Cert.Bridge.linLogSoftmax
    (addf (V c main_v47 : FVec Ideal S50000x128 .f32) (V c main_v57 : FVec Ideal S50000x128 .f32))
    (V c main_arg9) (V c main_v58)

/-- What point t writes back is block t of the whole-array output layer. -/
theorem flushed_eq (c : Dev nD) (t : Fin cfg3.N) :
    (dat3 (F := Ideal) V c).flushed 4 t = ((cfg3.win 4).blk t).view.read (Elt Ideal) (outLayer V c) := by
  show (cfg3.win 4).cut (grid3.coords t) ((dat3 (F := Ideal) V c).after 4 t) = _
  rw [after3_4]
  unfold out3_4
  rw [View.canon_unit_zero zeroOffsets]
  simp only [View.ld_unit_zero (S := S5000x128) zeroOffsets, View.ld_unit_zero (S := S128x47) zeroOffsets,
    View.ld_unit_zero (S := S1x47) zeroOffsets]
  obtain ⟨e00, e01, e10, e11, e20, e21, e30, e31, e40, e41, ht⟩ := blockIndices t
  funext y
  show k3_pay1 (F := Ideal) (iblk3 V c 0 t) (iblk3 V c 1 t) (iblk3 V c 2 t) (iblk3 V c 3 t) y
    = outLayer V c (((cfg3.win 4).blk t).view.emb y)
  have hy0 : (y 0).val < 5000 := (y 0).isLt
  have hy : y = ValueIdx.ix2 (n0 := 5000) (n1 := 47) (y 0) (y 1) := ValueIdx.eq_ix2 y
  have hi : ((cfg3.win 4).blk t).view.emb y
      = ValueIdx.ix2 (n0 := 50000) (n1 := 47) ⟨5000 * t.val + (y 0).val, by omega⟩ (y 1) := by
    funext a; apply Fin.ext
    match a with
    | ⟨0, _⟩ => show win3_4.index t (0 : Fin 2) * 5000 + 1 * (y 0).val = 5000 * t.val + (y 0).val; omega
    | ⟨1, _⟩ => show win3_4.index t (1 : Fin 2) * 47 + 1 * (y 1).val = (y 1).val; omega
  refine (congrArg (k3_pay1 (F := Ideal) (iblk3 V c 0 t) (iblk3 V c 1 t) (iblk3 V c 2 t) (iblk3 V c 3 t)) hy).trans ?_
  refine Eq.trans ?_ (congrArg (outLayer V c) hi.symm)
  refine entry_eq (V c main_v47) (V c main_v57) (V c main_arg9) (V c main_v58)
    (iblk3 V c 0 t) (iblk3 V c 1 t) (iblk3 V c 2 t) (iblk3 V c 3 t) (y 0) (y 1)
    ⟨5000 * t.val + (y 0).val, by omega⟩ ?_ ?_ ?_ ?_
  · intro k
    show V c main_v47 (((cfg3.win 0).blk t).view.emb (ValueIdx.ix2 (n0 := 5000) (n1 := 128) (y 0) k)) = V c main_v47 _
    refine congrArg _ (funext fun a => Fin.ext ?_)
    match a with
    | ⟨0, _⟩ => show win3_0.index t (0 : Fin 2) * 5000 + 1 * (y 0).val = 5000 * t.val + (y 0).val; omega
    | ⟨1, _⟩ => show win3_0.index t (1 : Fin 2) * 128 + 1 * k.val = k.val; omega
  · intro k
    show V c main_v57 (((cfg3.win 1).blk t).view.emb (ValueIdx.ix2 (n0 := 5000) (n1 := 128) (y 0) k)) = V c main_v57 _
    refine congrArg _ (funext fun a => Fin.ext ?_)
    match a with
    | ⟨0, _⟩ => show win3_1.index t (0 : Fin 2) * 5000 + 1 * (y 0).val = 5000 * t.val + (y 0).val; omega
    | ⟨1, _⟩ => show win3_1.index t (1 : Fin 2) * 128 + 1 * k.val = k.val; omega
  · funext x
    show V c main_arg9 (((cfg3.win 2).blk t).view.emb x) = V c main_arg9 x
    refine congrArg _ (funext fun a => Fin.ext ?_)
    match a with
    | ⟨0, _⟩ => show win3_2.index t (0 : Fin 2) * 128 + 1 * (x 0).val = (x 0).val; omega
    | ⟨1, _⟩ => show win3_2.index t (1 : Fin 2) * 47 + 1 * (x 1).val = (x 1).val; omega
  · funext x
    show V c main_v58 (((cfg3.win 3).blk t).view.emb x) = V c main_v58 x
    refine congrArg _ (funext fun a => Fin.ext ?_)
    match a with
    | ⟨0, _⟩ => show win3_3.index t (0 : Fin 2) * 1 + 1 * (x 0).val = (x 0).val; omega
    | ⟨1, _⟩ => show win3_3.index t (1 : Fin 2) * 47 + 1 * (x 1).val = (x 1).val; omega

/-- An index of the output array is in point t's block iff each coordinate is in the block's range on its axis. -/
theorem mem_blk (t : Fin cfg3.N) (i : S50000x47.Idx) :
    i ∈ ((cfg3.win 4).blk t).view.set
      ↔ ∀ a : Fin 2, win3_4.index t a * S5000x47.size a ≤ (i a).val
          ∧ (i a).val < win3_4.index t a * S5000x47.size a + S5000x47.size a := by
  show i ∈ ((View.whole main_v59).slice (win3_4.rect t)).set ↔ _
  rw [View.set_slice_whole, Rect.mem_set_unit]
  exact Iff.rfl

/-- Every index of the output array is in the block of a point that writes back: row r is in point r / 5000's. -/
theorem covered (i : S50000x47.Idx) :
    ∃ t : Fin cfg3.N, (cfg3.win 4).flush t = true ∧ i ∈ ((cfg3.win 4).blk t).view.set := by
  have hi0 : (i 0).val < 50000 := (i 0).isLt
  have hi1 : (i 1).val < 47 := (i 1).isLt
  obtain ⟨t, htv⟩ : ∃ t : Fin cfg3.N, t.val = (i 0).val / 5000 :=
    ⟨⟨(i 0).val / 5000, by show (i 0).val / 5000 < grid3.N; rw [N_3]; omega⟩, rfl⟩
  obtain ⟨-, -, -, -, -, -, -, -, e40, e41, -⟩ := blockIndices t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 47 ≤ (i 1).val ∧ (i 1).val < win3_4.index t (1 : Fin 2) * 47 + 47
    omega

theorem final3 (c : Dev nD) :
    (dat3 (F := Ideal) V c).arrAt 4 cfg3.N
      = Cert.Bridge.linLogSoftmax (addf (V c main_v47 : FVec Ideal S50000x128 .f32) (V c main_v57 : FVec Ideal S50000x128 .f32))
          (V c main_arg9) (V c main_v58) :=
  (dat3 (F := Ideal) V c).arrAt_eq_of_cover 4 (outLayer V c) (fun t _ => flushed_eq V c t) covered

end Cert.KernelIdeal.RegionValue
end
-- ==== Proof.KChain.lean ====
/-
  The kernel program's result as the network of the argument arrays.  Each region's output array is its layer applied
  to the arrays the region finds (the regions' value lemmas, stated at any entry contents); each host stretch hands
  the next region the gather / scatter-add pieces of what the previous region wrote and the next bias row.  Composed
  along @main: region 0 writes the first hidden features, region 1 the second, region 2 the third, region 3 the
  output.
-/
import proofs.«149347_j360777253399_1_alg».proof.Proof.KReads3
import proofs.«149347_j360777253399_1_alg».proof.Proof.RegionRelu
import proofs.«149347_j360777253399_1_alg».proof.Proof.RegionOut
import Idealize.ShloMosaic.Lib.StableHlo.Run

noncomputable section

namespace Cert.KernelIdeal.Chain

open Cert.KernelIdeal Cert.KernelIdeal.Gen Cert.KernelIdeal.HostReads Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Region 0 writes the first hidden features. -/
theorem h0 : W2 m ρ c (Proc.devRef .tc main_v21) = Cert.Bridge.hidden0 (m ((c.tc : Thread nD τ).loc main_arg0)) (m ((c.tc : Thread nD τ).loc main_arg2)) (m ((c.tc : Thread nD τ).loc main_arg3)) (m ((c.tc : Thread nD τ).loc main_arg4)) := by
  refine (W2_arr m ρ c 3).trans ((final0 (V1 m ρ) c).trans ?_)
  show Cert.Bridge.linRelu (W1 m ρ c (Proc.devRef .tc main_v19)) (W1 m ρ c (Proc.devRef .tc main_arg3)) (W1 m ρ c (Proc.devRef .tc main_v20)) = _
  rw [w1_conv m ρ c, w1_arg3 m ρ c, w1_bias m ρ c]
  rfl

/-- Region 1 writes the second hidden features. -/
theorem h1 : W4 m ρ c (Proc.devRef .tc main_v33) = Cert.Bridge.hidden1 (Cert.Bridge.hidden0 (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) := by
  refine (W4_arr m ρ c 4).trans ((final1 (V3 m ρ) c).trans ?_)
  show Cert.Bridge.linRelu (addf (W3 m ρ c (Proc.devRef .tc main_v21)) (W3 m ρ c (Proc.devRef .tc main_v31))) (W3 m ρ c (Proc.devRef .tc main_arg5)) (W3 m ρ c (Proc.devRef .tc main_v32)) = _
  rw [w3_aggr m ρ c, w3_h m ρ c, w3_arg5 m ρ c, w3_bias m ρ c, h0 m ρ c]
  rfl

/-- Region 2 writes the third hidden features. -/
theorem h2 : W6 m ρ c (Proc.devRef .tc main_v47) = Cert.Bridge.hidden0 (Cert.Bridge.hidden1 (Cert.Bridge.hidden0 (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg2)) (m ((c.tc : Thread nD τ).loc main_arg7)) (m ((c.tc : Thread nD τ).loc main_arg8)) := by
  refine (W6_arr m ρ c 3).trans ((final2 (V5 m ρ) c).trans ?_)
  show Cert.Bridge.linRelu (W5 m ρ c (Proc.devRef .tc main_v45)) (W5 m ρ c (Proc.devRef .tc main_arg7)) (W5 m ρ c (Proc.devRef .tc main_v46)) = _
  rw [w5_conv m ρ c, w5_arg7 m ρ c, w5_bias m ρ c, h1 m ρ c]
  rfl

/-- Region 3 writes the network's output. -/
theorem out : W8 m ρ c (Proc.devRef .tc main_v59) = Cert.Bridge.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W8_arr m ρ c 4).trans ((final3 (V7 m ρ) c).trans ?_)
  show Cert.Bridge.linLogSoftmax (addf (W7 m ρ c (Proc.devRef .tc main_v47)) (W7 m ρ c (Proc.devRef .tc main_v57))) (W7 m ρ c (Proc.devRef .tc main_arg9)) (W7 m ρ c (Proc.devRef .tc main_v58)) = _
  rw [w7_aggr m ρ c, w7_h m ρ c, w7_arg9 m ρ c, w7_bias m ρ c, h2 m ρ c]
  rfl

end Cert.KernelIdeal.Chain

end
-- ==== Proof.RefOps.lean ====
/-
  The reference program's @main as a list of its 108 host operations, cut at the three points where a layer's
  features are complete (after the first, second and third max (·, 0)), and its run: every weakly fair execution
  terminates with every buffer at the fold of the operations' results over the launch contents.  Folding the whole
  list is folding the four stretches one after the other.
-/
import proofs.«149347_j360777253399_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 108 operations, in order (a called function's operations stand in its call's place). -/
abbrev ops : List (HloOp τ sig (Elt F)) :=
  [ unary main_arg2 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg2 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    unary main_arg1 main_v4 ((extractStridedSlice S1x600000 ![0, 0] · slices_S2x600000_S1x600000_0_0) : (⟨S2x600000, .i32⟩ : BufTy).Contents (Elt F) → (⟨S1x600000, .i32⟩ : BufTy).Contents (Elt F)),
    reshape main_v4 main_v5 rfl shapeCasts_S1x600000_S600000,
    unary main_arg1 main_v6 ((extractStridedSlice S1x600000 ![1, 0] · slices_S2x600000_S1x600000_1_0) : (⟨S2x600000, .i32⟩ : BufTy).Contents (Elt F) → (⟨S1x600000, .i32⟩ : BufTy).Contents (Elt F)),
    reshape main_v6 main_v7 rfl shapeCasts_S1x600000_S600000,
    nullary main_c (constantI S_ 32 0#32),
    unary main_c main_v8 (broadcastInDim S1200000 ![] bcast_S_S1200000 : (⟨S_, .i32⟩ : BufTy).Contents (Elt F) → (⟨S1200000, .i32⟩ : BufTy).Contents (Elt F)),
    binary main_v3 main_v8 main_v9 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 50000#32),
    unary main_c_0 main_v10 (broadcastInDim S1200000 ![] bcast_S_S1200000 : (⟨S_, .i32⟩ : BufTy).Contents (Elt F) → (⟨S1200000, .i32⟩ : BufTy).Contents (Elt F)),
    binary main_v3 main_v10 main_v11 (addi : (⟨S1200000, .i32⟩ : BufTy).Contents (Elt F) → (⟨S1200000, .i32⟩ : BufTy).Contents (Elt F) → (⟨S1200000, .i32⟩ : BufTy).Contents (Elt F)),
    ternary main_v9 main_v11 main_v3 main_v12 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v12 main_v13 (broadcastInDim S1200000x1 ![0] bcast_S1200000_S1200000x1_0 : (⟨S1200000, .i32⟩ : BufTy).Contents (Elt F) → (⟨S1200000x1, .i32⟩ : BufTy).Contents (Elt F)),
    binary main_arg0 main_v13 main_v14 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v1 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    nullary main_cst_1 (constant S_ .f32 0x37A7C5AC#32),
    unary main_cst_1 main_v18 (broadcastInDim S50000x128 ![] bcast_S_S50000x128 : (⟨S_, .f32⟩ : BufTy).Contents (Elt F) → (⟨S50000x128, .f32⟩ : BufTy).Contents (Elt F)),
    binary main_v17 main_v18 main_v19 (mulf : (⟨S50000x128, .f32⟩ : BufTy).Contents (Elt F) → (⟨S50000x128, .f32⟩ : BufTy).Contents (Elt F) → (⟨S50000x128, .f32⟩ : BufTy).Contents (Elt F)),
    binary main_v19 main_arg3 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v21 (broadcastInDim S1x128 ![1] bcast_S128_S1x128_1 : (⟨S128, .f32⟩ : BufTy).Contents (Elt F) → (⟨S1x128, .f32⟩ : BufTy).Contents (Elt F)),
    unary main_v21 main_v22 (broadcastInDim S50000x128 ![0, 1] bcast_S1x128_S50000x128_0_1 : (⟨S1x128, .f32⟩ : BufTy).Contents (Elt F) → (⟨S50000x128, .f32⟩ : BufTy).Contents (Elt F)),
    binary main_v20 main_v22 main_v23 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v23) (TRef.of (T := ⟨S50000x128, .f32⟩) main_call0_v0) (TRef.of (T := ⟨S50000x128, .f32⟩) main_v24) maximumf,
    nullary main_c_2 (constantI S_ 32 0#32),
    unary main_c_2 main_v25 (broadcastInDim S600000 ![] bcast_S_S600000 : (⟨S_, .i32⟩ : BufTy).Contents (Elt F) → (⟨S600000, .i32⟩ : BufTy).Contents (Elt F)),
    binary main_v5 main_v25 main_v26 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v27 (broadcastInDim S600000 ![] bcast_S_S600000 : (⟨S_, .i32⟩ : BufTy).Contents (Elt F) → (⟨S600000, .i32⟩ : BufTy).Contents (Elt F)),
    binary main_v5 main_v27 main_v28 (addi : (⟨S600000, .i32⟩ : BufTy).Contents (Elt F) → (⟨S600000, .i32⟩ : BufTy).Contents (Elt F) → (⟨S600000, .i32⟩ : BufTy).Contents (Elt F)),
    ternary main_v26 main_v28 main_v5 main_v29 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v29 main_v30 (broadcastInDim S600000x1 ![0] bcast_S600000_S600000x1_0 : (⟨S600000, .i32⟩ : BufTy).Contents (Elt F) → (⟨S600000x1, .i32⟩ : BufTy).Contents (Elt F)),
    binary main_v24 main_v30 main_v31 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_4 (constant S_ .f32 0x00000000#32),
    unary main_cst_4 main_v32 (broadcastInDim S50000x128 ![] bcast_S_S50000x128 : (⟨S_, .f32⟩ : BufTy).Contents (Elt F) → (⟨S50000x128, .f32⟩ : BufTy).Contents (Elt F)),
    unary main_v7 main_v33 (broadcastInDim S600000x1 ![0] bcast_S600000_S600000x1_0 : (⟨S600000, .i32⟩ : BufTy).Contents (Elt F) → (⟨S600000x1, .i32⟩ : BufTy).Contents (Elt F)),
    ternary main_v32 main_v33 main_v31 main_v34 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v24 main_v34 main_v35 (addf : (⟨S50000x128, .f32⟩ : BufTy).Contents (Elt F) → (⟨S50000x128, .f32⟩ : BufTy).Contents (Elt F) → (⟨S50000x128, .f32⟩ : BufTy).Contents (Elt F)),
    binary main_v35 main_arg5 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v39) (TRef.of (T := ⟨S50000x128, .f32⟩) main_call1_v0) (TRef.of (T := ⟨S50000x128, .f32⟩) main_v40) maximumf,
    nullary main_c_5 (constantI S_ 32 0#32),
    unary main_c_5 main_v41 (broadcastInDim S1200000 ![] bcast_S_S1200000 : (⟨S_, .i32⟩ : BufTy).Contents (Elt F) → (⟨S1200000, .i32⟩ : BufTy).Contents (Elt F)),
    binary main_v3 main_v41 main_v42 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 50000#32),
    unary main_c_6 main_v43 (broadcastInDim S1200000 ![] bcast_S_S1200000 : (⟨S_, .i32⟩ : BufTy).Contents (Elt F) → (⟨S1200000, .i32⟩ : BufTy).Contents (Elt F)),
    binary main_v3 main_v43 main_v44 (addi : (⟨S1200000, .i32⟩ : BufTy).Contents (Elt F) → (⟨S1200000, .i32⟩ : BufTy).Contents (Elt F) → (⟨S1200000, .i32⟩ : BufTy).Contents (Elt F)),
    ternary main_v42 main_v44 main_v3 main_v45 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v45 main_v46 (broadcastInDim S1200000x1 ![0] bcast_S1200000_S1200000x1_0 : (⟨S1200000, .i32⟩ : BufTy).Contents (Elt F) → (⟨S1200000x1, .i32⟩ : BufTy).Contents (Elt F)),
    binary main_v40 main_v46 main_v47 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    nullary main_cst_7 (constant S_ .f32 0x00000000#32),
    unary main_cst_7 main_v48 (broadcastInDim S50000x128 ![] bcast_S_S50000x128 : (⟨S_, .f32⟩ : BufTy).Contents (Elt F) → (⟨S50000x128, .f32⟩ : BufTy).Contents (Elt F)),
    unary main_v1 main_v49 (broadcastInDim S1200000x1 ![0] bcast_S1200000_S1200000x1_0 : (⟨S1200000, .i32⟩ : BufTy).Contents (Elt F) → (⟨S1200000x1, .i32⟩ : BufTy).Contents (Elt F)),
    ternary main_v48 main_v49 main_v47 main_v50 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    nullary main_cst_8 (constant S_ .f32 0x37A7C5AC#32),
    unary main_cst_8 main_v51 (broadcastInDim S50000x128 ![] bcast_S_S50000x128 : (⟨S_, .f32⟩ : BufTy).Contents (Elt F) → (⟨S50000x128, .f32⟩ : BufTy).Contents (Elt F)),
    binary main_v50 main_v51 main_v52 (mulf : (⟨S50000x128, .f32⟩ : BufTy).Contents (Elt F) → (⟨S50000x128, .f32⟩ : BufTy).Contents (Elt F) → (⟨S50000x128, .f32⟩ : BufTy).Contents (Elt F)),
    binary main_v52 main_arg7 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v56) (TRef.of (T := ⟨S50000x128, .f32⟩) main_call2_v0) (TRef.of (T := ⟨S50000x128, .f32⟩) main_v57) maximumf,
    nullary main_c_9 (constantI S_ 32 0#32),
    unary main_c_9 main_v58 (broadcastInDim S600000 ![] bcast_S_S600000 : (⟨S_, .i32⟩ : BufTy).Contents (Elt F) → (⟨S600000, .i32⟩ : BufTy).Contents (Elt F)),
    binary main_v5 main_v58 main_v59 (cmpi .slt : (⟨S600000, .i32⟩ : BufTy).Contents (Elt F) → (⟨S600000, .i32⟩ : BufTy).Contents (Elt F) → (⟨S600000, .i1⟩ : BufTy).Contents (Elt F)),
    nullary main_c_10 (constantI S_ 32 50000#32),
    unary main_c_10 main_v60 (broadcastInDim S600000 ![] bcast_S_S600000 : (⟨S_, .i32⟩ : BufTy).Contents (Elt F) → (⟨S600000, .i32⟩ : BufTy).Contents (Elt F)),
    binary main_v5 main_v60 main_v61 (addi : (⟨S600000, .i32⟩ : BufTy).Contents (Elt F) → (⟨S600000, .i32⟩ : BufTy).Contents (Elt F) → (⟨S600000, .i32⟩ : BufTy).Contents (Elt F)),
    ternary main_v59 main_v61 main_v5 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v62 main_v63 (broadcastInDim S600000x1 ![0] bcast_S600000_S600000x1_0 : (⟨S600000, .i32⟩ : BufTy).Contents (Elt F) → (⟨S600000x1, .i32⟩ : BufTy).Contents (Elt F)),
    binary main_v57 main_v63 main_v64 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_11 (constant S_ .f32 0x00000000#32),
    unary main_cst_11 main_v65 (broadcastInDim S50000x128 ![] bcast_S_S50000x128 : (⟨S_, .f32⟩ : BufTy).Contents (Elt F) → (⟨S50000x128, .f32⟩ : BufTy).Contents (Elt F)),
    unary main_v7 main_v66 (broadcastInDim S600000x1 ![0] bcast_S600000_S600000x1_0 : (⟨S600000, .i32⟩ : BufTy).Contents (Elt F) → (⟨S600000x1, .i32⟩ : BufTy).Contents (Elt F)),
    ternary main_v65 main_v66 main_v64 main_v67 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v57 main_v67 main_v68 (addf : (⟨S50000x128, .f32⟩ : BufTy).Contents (Elt F) → (⟨S50000x128, .f32⟩ : BufTy).Contents (Elt F) → (⟨S50000x128, .f32⟩ : BufTy).Contents (Elt F)),
    binary main_v68 main_arg9 main_v69 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    unary main_arg10 main_v70 (broadcastInDim S1x47 ![1] bcast_S47_S1x47_1 : (⟨S47, .f32⟩ : BufTy).Contents (Elt F) → (⟨S1x47, .f32⟩ : BufTy).Contents (Elt F)),
    unary main_v70 main_v71 (broadcastInDim S50000x47 ![0, 1] bcast_S1x47_S50000x47_0_1 : (⟨S1x47, .f32⟩ : BufTy).Contents (Elt F) → (⟨S50000x47, .f32⟩ : BufTy).Contents (Elt F)),
    binary main_v69 main_v71 main_v72 (addf : (⟨S50000x47, .f32⟩ : BufTy).Contents (Elt F) → (⟨S50000x47, .f32⟩ : BufTy).Contents (Elt F) → (⟨S50000x47, .f32⟩ : BufTy).Contents (Elt F)),
    TRef.nullary (TRef.of (T := ⟨S_, .f32⟩) main_call3_cst) (constant S_ .f32 0xFF800000#32),
    TRef.binary (TRef.of (T := ⟨S50000x47, .f32⟩) main_v72) (TRef.of (T := ⟨S_, .f32⟩) main_call3_cst) (TRef.of (T := ⟨S50000, .f32⟩) main_call3_v0) (fun x v => Host.reduce FloatOps.maximumf x v reducesTo_S50000x47_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x47, .f32⟩) main_call3_v4) (broadcastInDim S50000x47 ![0, 1] bcast_S50000x1_S50000x47_0_1),
    TRef.binary (TRef.of (T := ⟨S50000x47, .f32⟩) main_v72) (TRef.of (T := ⟨S50000x47, .f32⟩) main_call3_v4) (TRef.of (T := ⟨S50000x47, .f32⟩) main_call3_v5) subf,
    TRef.unary (TRef.of (T := ⟨S50000x47, .f32⟩) main_call3_v5) (TRef.of (T := ⟨S50000x47, .f32⟩) main_call3_v6) Host.exp,
    TRef.nullary (TRef.of (T := ⟨S_, .f32⟩) main_call3_cst_1) (constant S_ .f32 0x00000000#32),
    TRef.binary (TRef.of (T := ⟨S50000x47, .f32⟩) main_call3_v6) (TRef.of (T := ⟨S_, .f32⟩) main_call3_cst_1) (TRef.of (T := ⟨S50000, .f32⟩) main_call3_v7) (fun x v => Host.reduceAdd x v reducesTo_S50000x47_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x47, .f32⟩) main_call3_v10) (broadcastInDim S50000x47 ![0, 1] bcast_S50000x1_S50000x47_0_1),
    TRef.binary (TRef.of (T := ⟨S50000x47, .f32⟩) main_call3_v5) (TRef.of (T := ⟨S50000x47, .f32⟩) main_call3_v10) (TRef.of (T := ⟨S50000x47, .f32⟩) main_v73) subf ]

/-- The edge lists, the first ego convolution, the first linear map and max (·, 0). -/
abbrev seg0 : List (HloOp τ sig (Elt F)) :=
  [ unary main_arg2 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg2 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    unary main_arg1 main_v4 ((extractStridedSlice S1x600000 ![0, 0] · slices_S2x600000_S1x600000_0_0) : (⟨S2x600000, .i32⟩ : BufTy).Contents (Elt F) → (⟨S1x600000, .i32⟩ : BufTy).Contents (Elt F)),
    reshape main_v4 main_v5 rfl shapeCasts_S1x600000_S600000,
    unary main_arg1 main_v6 ((extractStridedSlice S1x600000 ![1, 0] · slices_S2x600000_S1x600000_1_0) : (⟨S2x600000, .i32⟩ : BufTy).Contents (Elt F) → (⟨S1x600000, .i32⟩ : BufTy).Contents (Elt F)),
    reshape main_v6 main_v7 rfl shapeCasts_S1x600000_S600000,
    nullary main_c (constantI S_ 32 0#32),
    unary main_c main_v8 (broadcastInDim S1200000 ![] bcast_S_S1200000 : (⟨S_, .i32⟩ : BufTy).Contents (Elt F) → (⟨S1200000, .i32⟩ : BufTy).Contents (Elt F)),
    binary main_v3 main_v8 main_v9 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 50000#32),
    unary main_c_0 main_v10 (broadcastInDim S1200000 ![] bcast_S_S1200000 : (⟨S_, .i32⟩ : BufTy).Contents (Elt F) → (⟨S1200000, .i32⟩ : BufTy).Contents (Elt F)),
    binary main_v3 main_v10 main_v11 (addi : (⟨S1200000, .i32⟩ : BufTy).Contents (Elt F) → (⟨S1200000, .i32⟩ : BufTy).Contents (Elt F) → (⟨S1200000, .i32⟩ : BufTy).Contents (Elt F)),
    ternary main_v9 main_v11 main_v3 main_v12 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v12 main_v13 (broadcastInDim S1200000x1 ![0] bcast_S1200000_S1200000x1_0 : (⟨S1200000, .i32⟩ : BufTy).Contents (Elt F) → (⟨S1200000x1, .i32⟩ : BufTy).Contents (Elt F)),
    binary main_arg0 main_v13 main_v14 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v1 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    nullary main_cst_1 (constant S_ .f32 0x37A7C5AC#32),
    unary main_cst_1 main_v18 (broadcastInDim S50000x128 ![] bcast_S_S50000x128 : (⟨S_, .f32⟩ : BufTy).Contents (Elt F) → (⟨S50000x128, .f32⟩ : BufTy).Contents (Elt F)),
    binary main_v17 main_v18 main_v19 (mulf : (⟨S50000x128, .f32⟩ : BufTy).Contents (Elt F) → (⟨S50000x128, .f32⟩ : BufTy).Contents (Elt F) → (⟨S50000x128, .f32⟩ : BufTy).Contents (Elt F)),
    binary main_v19 main_arg3 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v21 (broadcastInDim S1x128 ![1] bcast_S128_S1x128_1 : (⟨S128, .f32⟩ : BufTy).Contents (Elt F) → (⟨S1x128, .f32⟩ : BufTy).Contents (Elt F)),
    unary main_v21 main_v22 (broadcastInDim S50000x128 ![0, 1] bcast_S1x128_S50000x128_0_1 : (⟨S1x128, .f32⟩ : BufTy).Contents (Elt F) → (⟨S50000x128, .f32⟩ : BufTy).Contents (Elt F)),
    binary main_v20 main_v22 main_v23 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v23) (TRef.of (T := ⟨S50000x128, .f32⟩) main_call0_v0) (TRef.of (T := ⟨S50000x128, .f32⟩) main_v24) maximumf ]

/-- The first neighbourhood sum, the second linear map and max (·, 0). -/
abbrev seg1 : List (HloOp τ sig (Elt F)) :=
  [ nullary main_c_2 (constantI S_ 32 0#32),
    unary main_c_2 main_v25 (broadcastInDim S600000 ![] bcast_S_S600000 : (⟨S_, .i32⟩ : BufTy).Contents (Elt F) → (⟨S600000, .i32⟩ : BufTy).Contents (Elt F)),
    binary main_v5 main_v25 main_v26 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v27 (broadcastInDim S600000 ![] bcast_S_S600000 : (⟨S_, .i32⟩ : BufTy).Contents (Elt F) → (⟨S600000, .i32⟩ : BufTy).Contents (Elt F)),
    binary main_v5 main_v27 main_v28 (addi : (⟨S600000, .i32⟩ : BufTy).Contents (Elt F) → (⟨S600000, .i32⟩ : BufTy).Contents (Elt F) → (⟨S600000, .i32⟩ : BufTy).Contents (Elt F)),
    ternary main_v26 main_v28 main_v5 main_v29 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v29 main_v30 (broadcastInDim S600000x1 ![0] bcast_S600000_S600000x1_0 : (⟨S600000, .i32⟩ : BufTy).Contents (Elt F) → (⟨S600000x1, .i32⟩ : BufTy).Contents (Elt F)),
    binary main_v24 main_v30 main_v31 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_4 (constant S_ .f32 0x00000000#32),
    unary main_cst_4 main_v32 (broadcastInDim S50000x128 ![] bcast_S_S50000x128 : (⟨S_, .f32⟩ : BufTy).Contents (Elt F) → (⟨S50000x128, .f32⟩ : BufTy).Contents (Elt F)),
    unary main_v7 main_v33 (broadcastInDim S600000x1 ![0] bcast_S600000_S600000x1_0 : (⟨S600000, .i32⟩ : BufTy).Contents (Elt F) → (⟨S600000x1, .i32⟩ : BufTy).Contents (Elt F)),
    ternary main_v32 main_v33 main_v31 main_v34 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v24 main_v34 main_v35 (addf : (⟨S50000x128, .f32⟩ : BufTy).Contents (Elt F) → (⟨S50000x128, .f32⟩ : BufTy).Contents (Elt F) → (⟨S50000x128, .f32⟩ : BufTy).Contents (Elt F)),
    binary main_v35 main_arg5 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S50000x128 ![0, 1] bcast_S1x128_S50000x128_0_1 : (⟨S1x128, .f32⟩ : BufTy).Contents (Elt F) → (⟨S50000x128, .f32⟩ : BufTy).Contents (Elt F)),
    binary main_v36 main_v38 main_v39 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v39) (TRef.of (T := ⟨S50000x128, .f32⟩) main_call1_v0) (TRef.of (T := ⟨S50000x128, .f32⟩) main_v40) maximumf ]

/-- The second ego convolution, the third linear map and max (·, 0). -/
abbrev seg2 : List (HloOp τ sig (Elt F)) :=
  [ nullary main_c_5 (constantI S_ 32 0#32),
    unary main_c_5 main_v41 (broadcastInDim S1200000 ![] bcast_S_S1200000 : (⟨S_, .i32⟩ : BufTy).Contents (Elt F) → (⟨S1200000, .i32⟩ : BufTy).Contents (Elt F)),
    binary main_v3 main_v41 main_v42 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 50000#32),
    unary main_c_6 main_v43 (broadcastInDim S1200000 ![] bcast_S_S1200000 : (⟨S_, .i32⟩ : BufTy).Contents (Elt F) → (⟨S1200000, .i32⟩ : BufTy).Contents (Elt F)),
    binary main_v3 main_v43 main_v44 (addi : (⟨S1200000, .i32⟩ : BufTy).Contents (Elt F) → (⟨S1200000, .i32⟩ : BufTy).Contents (Elt F) → (⟨S1200000, .i32⟩ : BufTy).Contents (Elt F)),
    ternary main_v42 main_v44 main_v3 main_v45 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v45 main_v46 (broadcastInDim S1200000x1 ![0] bcast_S1200000_S1200000x1_0 : (⟨S1200000, .i32⟩ : BufTy).Contents (Elt F) → (⟨S1200000x1, .i32⟩ : BufTy).Contents (Elt F)),
    binary main_v40 main_v46 main_v47 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    nullary main_cst_7 (constant S_ .f32 0x00000000#32),
    unary main_cst_7 main_v48 (broadcastInDim S50000x128 ![] bcast_S_S50000x128 : (⟨S_, .f32⟩ : BufTy).Contents (Elt F) → (⟨S50000x128, .f32⟩ : BufTy).Contents (Elt F)),
    unary main_v1 main_v49 (broadcastInDim S1200000x1 ![0] bcast_S1200000_S1200000x1_0 : (⟨S1200000, .i32⟩ : BufTy).Contents (Elt F) → (⟨S1200000x1, .i32⟩ : BufTy).Contents (Elt F)),
    ternary main_v48 main_v49 main_v47 main_v50 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    nullary main_cst_8 (constant S_ .f32 0x37A7C5AC#32),
    unary main_cst_8 main_v51 (broadcastInDim S50000x128 ![] bcast_S_S50000x128 : (⟨S_, .f32⟩ : BufTy).Contents (Elt F) → (⟨S50000x128, .f32⟩ : BufTy).Contents (Elt F)),
    binary main_v50 main_v51 main_v52 (mulf : (⟨S50000x128, .f32⟩ : BufTy).Contents (Elt F) → (⟨S50000x128, .f32⟩ : BufTy).Contents (Elt F) → (⟨S50000x128, .f32⟩ : BufTy).Contents (Elt F)),
    binary main_v52 main_arg7 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v56) (TRef.of (T := ⟨S50000x128, .f32⟩) main_call2_v0) (TRef.of (T := ⟨S50000x128, .f32⟩) main_v57) maximumf ]

/-- The second neighbourhood sum, the output map and the row-wise log-softmax. -/
abbrev seg3 : List (HloOp τ sig (Elt F)) :=
  [ nullary main_c_9 (constantI S_ 32 0#32),
    unary main_c_9 main_v58 (broadcastInDim S600000 ![] bcast_S_S600000 : (⟨S_, .i32⟩ : BufTy).Contents (Elt F) → (⟨S600000, .i32⟩ : BufTy).Contents (Elt F)),
    binary main_v5 main_v58 main_v59 (cmpi .slt : (⟨S600000, .i32⟩ : BufTy).Contents (Elt F) → (⟨S600000, .i32⟩ : BufTy).Contents (Elt F) → (⟨S600000, .i1⟩ : BufTy).Contents (Elt F)),
    nullary main_c_10 (constantI S_ 32 50000#32),
    unary main_c_10 main_v60 (broadcastInDim S600000 ![] bcast_S_S600000 : (⟨S_, .i32⟩ : BufTy).Contents (Elt F) → (⟨S600000, .i32⟩ : BufTy).Contents (Elt F)),
    binary main_v5 main_v60 main_v61 (addi : (⟨S600000, .i32⟩ : BufTy).Contents (Elt F) → (⟨S600000, .i32⟩ : BufTy).Contents (Elt F) → (⟨S600000, .i32⟩ : BufTy).Contents (Elt F)),
    ternary main_v59 main_v61 main_v5 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v62 main_v63 (broadcastInDim S600000x1 ![0] bcast_S600000_S600000x1_0 : (⟨S600000, .i32⟩ : BufTy).Contents (Elt F) → (⟨S600000x1, .i32⟩ : BufTy).Contents (Elt F)),
    binary main_v57 main_v63 main_v64 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_11 (constant S_ .f32 0x00000000#32),
    unary main_cst_11 main_v65 (broadcastInDim S50000x128 ![] bcast_S_S50000x128 : (⟨S_, .f32⟩ : BufTy).Contents (Elt F) → (⟨S50000x128, .f32⟩ : BufTy).Contents (Elt F)),
    unary main_v7 main_v66 (broadcastInDim S600000x1 ![0] bcast_S600000_S600000x1_0 : (⟨S600000, .i32⟩ : BufTy).Contents (Elt F) → (⟨S600000x1, .i32⟩ : BufTy).Contents (Elt F)),
    ternary main_v65 main_v66 main_v64 main_v67 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v57 main_v67 main_v68 (addf : (⟨S50000x128, .f32⟩ : BufTy).Contents (Elt F) → (⟨S50000x128, .f32⟩ : BufTy).Contents (Elt F) → (⟨S50000x128, .f32⟩ : BufTy).Contents (Elt F)),
    binary main_v68 main_arg9 main_v69 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    unary main_arg10 main_v70 (broadcastInDim S1x47 ![1] bcast_S47_S1x47_1 : (⟨S47, .f32⟩ : BufTy).Contents (Elt F) → (⟨S1x47, .f32⟩ : BufTy).Contents (Elt F)),
    unary main_v70 main_v71 (broadcastInDim S50000x47 ![0, 1] bcast_S1x47_S50000x47_0_1 : (⟨S1x47, .f32⟩ : BufTy).Contents (Elt F) → (⟨S50000x47, .f32⟩ : BufTy).Contents (Elt F)),
    binary main_v69 main_v71 main_v72 (addf : (⟨S50000x47, .f32⟩ : BufTy).Contents (Elt F) → (⟨S50000x47, .f32⟩ : BufTy).Contents (Elt F) → (⟨S50000x47, .f32⟩ : BufTy).Contents (Elt F)),
    TRef.nullary (TRef.of (T := ⟨S_, .f32⟩) main_call3_cst) (constant S_ .f32 0xFF800000#32),
    TRef.binary (TRef.of (T := ⟨S50000x47, .f32⟩) main_v72) (TRef.of (T := ⟨S_, .f32⟩) main_call3_cst) (TRef.of (T := ⟨S50000, .f32⟩) main_call3_v0) (fun x v => Host.reduce FloatOps.maximumf x v reducesTo_S50000x47_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x47, .f32⟩) main_call3_v4) (broadcastInDim S50000x47 ![0, 1] bcast_S50000x1_S50000x47_0_1),
    TRef.binary (TRef.of (T := ⟨S50000x47, .f32⟩) main_v72) (TRef.of (T := ⟨S50000x47, .f32⟩) main_call3_v4) (TRef.of (T := ⟨S50000x47, .f32⟩) main_call3_v5) subf,
    TRef.unary (TRef.of (T := ⟨S50000x47, .f32⟩) main_call3_v5) (TRef.of (T := ⟨S50000x47, .f32⟩) main_call3_v6) Host.exp,
    TRef.nullary (TRef.of (T := ⟨S_, .f32⟩) main_call3_cst_1) (constant S_ .f32 0x00000000#32),
    TRef.binary (TRef.of (T := ⟨S50000x47, .f32⟩) main_call3_v6) (TRef.of (T := ⟨S_, .f32⟩) main_call3_cst_1) (TRef.of (T := ⟨S50000, .f32⟩) main_call3_v7) (fun x v => Host.reduceAdd x v reducesTo_S50000x47_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x47, .f32⟩) main_call3_v10) (broadcastInDim S50000x47 ![0, 1] bcast_S50000x1_S50000x47_0_1),
    TRef.binary (TRef.of (T := ⟨S50000x47, .f32⟩) main_call3_v5) (TRef.of (T := ⟨S50000x47, .f32⟩) main_call3_v10) (TRef.of (T := ⟨S50000x47, .f32⟩) main_v73) subf ]

set_option maxRecDepth 8192 in
theorem ops_split : (ops : List (HloOp τ sig (Elt F))) = seg0 ++ (seg1 ++ (seg2 ++ seg3)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Folding a concatenation is folding its parts in order. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold of the whole list is the fold of the four stretches in order. -/
theorem after_split (V : Valuation τ sig (Elt F)) :
    after (ops (F := F)) V = after seg3 (after seg2 (after seg1 (after seg0 V))) := by
  rw [ops_split, after_append, after_append, after_append]

/-- Every weakly fair execution of @main terminates with each TensorCore buffer at the fold of the operations'
    results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops (launchContents m c) (Proc.devRef .tc b) :=
  run_seq scopedRefs_eq scopedSems_eq defs main (fun _ => ops) main_eq (fun _ => ops_sub) m ρ

end Cert.ReferenceIdeal.RefRun

end
-- ==== Proof.RefArgs.lean ====
/-
  No operation of the reference program writes an argument array: folded through the whole list, each argument's
  buffer holds its launch contents.
-/
import proofs.«149347_j360777253399_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxHeartbeats 4000000 in
/-- Argument 0 is never written. -/
theorem kept_arg0 : after (ops (F := F)) (launchContents m c) (Proc.devRef .tc main_arg0) = m ((c.tc : Thread nD τ).loc main_arg0) := by
  after_results_simp <;> rfl

set_option maxHeartbeats 4000000 in
/-- Argument 1 is never written. -/
theorem kept_arg1 : after (ops (F := F)) (launchContents m c) (Proc.devRef .tc main_arg1) = m ((c.tc : Thread nD τ).loc main_arg1) := by
  after_results_simp <;> rfl

set_option maxHeartbeats 4000000 in
/-- Argument 2 is never written. -/
theorem kept_arg2 : after (ops (F := F)) (launchContents m c) (Proc.devRef .tc main_arg2) = m ((c.tc : Thread nD τ).loc main_arg2) := by
  after_results_simp <;> rfl

set_option maxHeartbeats 4000000 in
/-- Argument 3 is never written. -/
theorem kept_arg3 : after (ops (F := F)) (launchContents m c) (Proc.devRef .tc main_arg3) = m ((c.tc : Thread nD τ).loc main_arg3) := by
  after_results_simp <;> rfl

set_option maxHeartbeats 4000000 in
/-- Argument 4 is never written. -/
theorem kept_arg4 : after (ops (F := F)) (launchContents m c) (Proc.devRef .tc main_arg4) = m ((c.tc : Thread nD τ).loc main_arg4) := by
  after_results_simp <;> rfl

set_option maxHeartbeats 4000000 in
/-- Argument 5 is never written. -/
theorem kept_arg5 : after (ops (F := F)) (launchContents m c) (Proc.devRef .tc main_arg5) = m ((c.tc : Thread nD τ).loc main_arg5) := by
  after_results_simp <;> rfl

set_option maxHeartbeats 4000000 in
/-- Argument 6 is never written. -/
theorem kept_arg6 : after (ops (F := F)) (launchContents m c) (Proc.devRef .tc main_arg6) = m ((c.tc : Thread nD τ).loc main_arg6) := by
  after_results_simp <;> rfl

set_option maxHeartbeats 4000000 in
/-- Argument 7 is never written. -/
theorem kept_arg7 : after (ops (F := F)) (launchContents m c) (Proc.devRef .tc main_arg7) = m ((c.tc : Thread nD τ).loc main_arg7) := by
  after_results_simp <;> rfl

set_option maxHeartbeats 4000000 in
/-- Argument 8 is never written. -/
theorem kept_arg8 : after (ops (F := F)) (launchContents m c) (Proc.devRef .tc main_arg8) = m ((c.tc : Thread nD τ).loc main_arg8) := by
  after_results_simp <;> rfl

set_option maxHeartbeats 4000000 in
/-- Argument 9 is never written. -/
theorem kept_arg9 : after (ops (F := F)) (launchContents m c) (Proc.devRef .tc main_arg9) = m ((c.tc : Thread nD τ).loc main_arg9) := by
  after_results_simp <;> rfl

set_option maxHeartbeats 4000000 in
/-- Argument 10 is never written. -/
theorem kept_arg10 : after (ops (F := F)) (launchContents m c) (Proc.devRef .tc main_arg10) = m ((c.tc : Thread nD τ).loc main_arg10) := by
  after_results_simp <;> rfl

end Cert.ReferenceIdeal.RefRun

end
-- ==== Proof.RefReads0.lean ====
/-
  The reference program's first stretch of host operations, read buffer by buffer: from the launch contents, the
  four index vectors and the first hidden features (ego convolution, linear map, max (·, 0)); no argument is written.
-/
import proofs.«149347_j360777253399_1_alg».proof.Proof.RefOps
import proofs.«149347_j360777253399_1_alg».proof.Proof.Model
import Idealize.ShloMosaic.Lib.StableHlo.Run

noncomputable section

namespace Cert.ReferenceIdeal.RefReads

open Cert.ReferenceIdeal Cert.ReferenceIdeal.Gen Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- The launch contents of core `c`. -/
abbrev R0 : Valuation τ sig (Elt Ideal) := launchContents m c
/-- The buffers after the first stretch. -/
def R1 : Valuation τ sig (Elt Ideal) := StableHlo.after (seg0 (F := Ideal)) (R0 m c)

set_option maxHeartbeats 4000000 in
/-- After the first stretch: the egonet edges' rows. -/
theorem r1_v1 : R1 m c (Proc.devRef .tc main_v1) = Cert.Bridge.egoRows (m ((c.tc : Thread nD τ).loc main_arg2)) := by
  show StableHlo.after (seg0 (F := Ideal)) (R0 m c) (Proc.devRef .tc main_v1) = _
  after_results_simp
  try rfl

set_option maxHeartbeats 4000000 in
/-- After the first stretch: the egonet edges' columns. -/
theorem r1_v3 : R1 m c (Proc.devRef .tc main_v3) = Cert.Bridge.egoCols (m ((c.tc : Thread nD τ).loc main_arg2)) := by
  show StableHlo.after (seg0 (F := Ideal)) (R0 m c) (Proc.devRef .tc main_v3) = _
  after_results_simp
  try rfl

set_option maxHeartbeats 4000000 in
/-- After the first stretch: the graph edges' sources. -/
theorem r1_v5 : R1 m c (Proc.devRef .tc main_v5) = Cert.Bridge.edgeSrc (m ((c.tc : Thread nD τ).loc main_arg1)) := by
  show StableHlo.after (seg0 (F := Ideal)) (R0 m c) (Proc.devRef .tc main_v5) = _
  after_results_simp
  try rfl

set_option maxHeartbeats 4000000 in
/-- After the first stretch: the graph edges' targets. -/
theorem r1_v7 : R1 m c (Proc.devRef .tc main_v7) = Cert.Bridge.edgeTgt (m ((c.tc : Thread nD τ).loc main_arg1)) := by
  show StableHlo.after (seg0 (F := Ideal)) (R0 m c) (Proc.devRef .tc main_v7) = _
  after_results_simp
  try rfl

set_option maxHeartbeats 4000000 in
/-- After the first stretch: the first hidden features. -/
theorem r1_h : R1 m c (Proc.devRef .tc main_v24) = Cert.Bridge.hidden0 (m ((c.tc : Thread nD τ).loc main_arg0)) (m ((c.tc : Thread nD τ).loc main_arg2)) (m ((c.tc : Thread nD τ).loc main_arg3)) (m ((c.tc : Thread nD τ).loc main_arg4)) := by
  show StableHlo.after (seg0 (F := Ideal)) (R0 m c) (Proc.devRef .tc main_v24) = _
  after_results_simp
  try rfl

set_option maxHeartbeats 4000000 in
/-- The first stretch leaves argument 5 as launched. -/
theorem r1_arg5 : R1 m c (Proc.devRef .tc main_arg5) = (m ((c.tc : Thread nD τ).loc main_arg5)) := by
  show StableHlo.after (seg0 (F := Ideal)) (R0 m c) (Proc.devRef .tc main_arg5) = _
  after_results_simp
  try rfl

set_option maxHeartbeats 4000000 in
/-- The first stretch leaves argument 6 as launched. -/
theorem r1_arg6 : R1 m c (Proc.devRef .tc main_arg6) = (m ((c.tc : Thread nD τ).loc main_arg6)) := by
  show StableHlo.after (seg0 (F := Ideal)) (R0 m c) (Proc.devRef .tc main_arg6) = _
  after_results_simp
  try rfl

set_option maxHeartbeats 4000000 in
/-- The first stretch leaves argument 7 as launched. -/
theorem r1_arg7 : R1 m c (Proc.devRef .tc main_arg7) = (m ((c.tc : Thread nD τ).loc main_arg7)) := by
  show StableHlo.after (seg0 (F := Ideal)) (R0 m c) (Proc.devRef .tc main_arg7) = _
  after_results_simp
  try rfl

set_option maxHeartbeats 4000000 in
/-- The first stretch leaves argument 8 as launched. -/
theorem r1_arg8 : R1 m c (Proc.devRef .tc main_arg8) = (m ((c.tc : Thread nD τ).loc main_arg8)) := by
  show StableHlo.after (seg0 (F := Ideal)) (R0 m c) (Proc.devRef .tc main_arg8) = _
  after_results_simp
  try rfl

set_option maxHeartbeats 4000000 in
/-- The first stretch leaves argument 9 as launched. -/
theorem r1_arg9 : R1 m c (Proc.devRef .tc main_arg9) = (m ((c.tc : Thread nD τ).loc main_arg9)) := by
  show StableHlo.after (seg0 (F := Ideal)) (R0 m c) (Proc.devRef .tc main_arg9) = _
  after_results_simp
  try rfl

set_option maxHeartbeats 4000000 in
/-- The first stretch leaves argument 10 as launched. -/
theorem r1_arg10 : R1 m c (Proc.devRef .tc main_arg10) = (m ((c.tc : Thread nD τ).loc main_arg10)) := by
  show StableHlo.after (seg0 (F := Ideal)) (R0 m c) (Proc.devRef .tc main_arg10) = _
  after_results_simp
  try rfl

end Cert.ReferenceIdeal.RefReads

end
-- ==== Proof.RefReads1.lean ====
/-
  The reference program's second stretch: the neighbourhood sum of the first hidden features, the second linear map
  and max (·, 0).
-/
import proofs.«149347_j360777253399_1_alg».proof.Proof.RefReads0
import Idealize.ShloMosaic.Lib.StableHlo.Run

noncomputable section

namespace Cert.ReferenceIdeal.RefReads

open Cert.ReferenceIdeal Cert.ReferenceIdeal.Gen Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- The buffers after the second stretch. -/
def R2 : Valuation τ sig (Elt Ideal) := StableHlo.after (seg1 (F := Ideal)) (R1 m c)

set_option maxHeartbeats 4000000 in
/-- After the second stretch: the second hidden features, from the first. -/
theorem r2_h : R2 m c (Proc.devRef .tc main_v40) = Cert.Bridge.hidden1 (R1 m c (Proc.devRef .tc main_v24)) (m ((c.tc : Thread nD τ).loc main_arg1)) (m ((c.tc : Thread nD τ).loc main_arg5)) (m ((c.tc : Thread nD τ).loc main_arg6)) := by
  show StableHlo.after (seg1 (F := Ideal)) (R1 m c) (Proc.devRef .tc main_v40) = _
  after_results_simp
  rw [r1_v5 m c, r1_v7 m c, r1_arg5 m c, r1_arg6 m c]
  try rfl

set_option maxHeartbeats 4000000 in
/-- After the second stretch: the egonet edges' rows. -/
theorem r2_v1 : R2 m c (Proc.devRef .tc main_v1) = Cert.Bridge.egoRows (m ((c.tc : Thread nD τ).loc main_arg2)) := by
  show StableHlo.after (seg1 (F := Ideal)) (R1 m c) (Proc.devRef .tc main_v1) = _
  after_results_simp
  exact r1_v1 m c

set_option maxHeartbeats 4000000 in
/-- After the second stretch: the egonet edges' columns. -/
theorem r2_v3 : R2 m c (Proc.devRef .tc main_v3) = Cert.Bridge.egoCols (m ((c.tc : Thread nD τ).loc main_arg2)) := by
  show StableHlo.after (seg1 (F := Ideal)) (R1 m c) (Proc.devRef .tc main_v3) = _
  after_results_simp
  exact r1_v3 m c

set_option maxHeartbeats 4000000 in
/-- After the second stretch: the graph edges' sources. -/
theorem r2_v5 : R2 m c (Proc.devRef .tc main_v5) = Cert.Bridge.edgeSrc (m ((c.tc : Thread nD τ).loc main_arg1)) := by
  show StableHlo.after (seg1 (F := Ideal)) (R1 m c) (Proc.devRef .tc main_v5) = _
  after_results_simp
  exact r1_v5 m c

set_option maxHeartbeats 4000000 in
/-- After the second stretch: the graph edges' targets. -/
theorem r2_v7 : R2 m c (Proc.devRef .tc main_v7) = Cert.Bridge.edgeTgt (m ((c.tc : Thread nD τ).loc main_arg1)) := by
  show StableHlo.after (seg1 (F := Ideal)) (R1 m c) (Proc.devRef .tc main_v7) = _
  after_results_simp
  exact r1_v7 m c

set_option maxHeartbeats 4000000 in
/-- The second stretch leaves argument 7 as launched. -/
theorem r2_arg7 : R2 m c (Proc.devRef .tc main_arg7) = (m ((c.tc : Thread nD τ).loc main_arg7)) := by
  show StableHlo.after (seg1 (F := Ideal)) (R1 m c) (Proc.devRef .tc main_arg7) = _
  after_results_simp
  exact r1_arg7 m c

set_option maxHeartbeats 4000000 in
/-- The second stretch leaves argument 8 as launched. -/
theorem r2_arg8 : R2 m c (Proc.devRef .tc main_arg8) = (m ((c.tc : Thread nD τ).loc main_arg8)) := by
  show StableHlo.after (seg1 (F := Ideal)) (R1 m c) (Proc.devRef .tc main_arg8) = _
  after_results_simp
  exact r1_arg8 m c

set_option maxHeartbeats 4000000 in
/-- The second stretch leaves argument 9 as launched. -/
theorem r2_arg9 : R2 m c (Proc.devRef .tc main_arg9) = (m ((c.tc : Thread nD τ).loc main_arg9)) := by
  show StableHlo.after (seg1 (F := Ideal)) (R1 m c) (Proc.devRef .tc main_arg9) = _
  after_results_simp
  exact r1_arg9 m c

set_option maxHeartbeats 4000000 in
/-- The second stretch leaves argument 10 as launched. -/
theorem r2_arg10 : R2 m c (Proc.devRef .tc main_arg10) = (m ((c.tc : Thread nD τ).loc main_arg10)) := by
  show StableHlo.after (seg1 (F := Ideal)) (R1 m c) (Proc.devRef .tc main_arg10) = _
  after_results_simp
  exact r1_arg10 m c

end Cert.ReferenceIdeal.RefReads

end
-- ==== Proof.RefReads2.lean ====
/-
  The reference program's third stretch: the ego convolution of the second hidden features, the third linear map
  and max (·, 0).
-/
import proofs.«149347_j360777253399_1_alg».proof.Proof.RefReads1
import Idealize.ShloMosaic.Lib.StableHlo.Run

noncomputable section

namespace Cert.ReferenceIdeal.RefReads

open Cert.ReferenceIdeal Cert.ReferenceIdeal.Gen Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- The buffers after the third stretch. -/
def R3 : Valuation τ sig (Elt Ideal) := StableHlo.after (seg2 (F := Ideal)) (R2 m c)

set_option maxHeartbeats 4000000 in
/-- After the third stretch: the third hidden features, from the second. -/
theorem r3_h : R3 m c (Proc.devRef .tc main_v57) = Cert.Bridge.hidden0 (R2 m c (Proc.devRef .tc main_v40)) (m ((c.tc : Thread nD τ).loc main_arg2)) (m ((c.tc : Thread nD τ).loc main_arg7)) (m ((c.tc : Thread nD τ).loc main_arg8)) := by
  show StableHlo.after (seg2 (F := Ideal)) (R2 m c) (Proc.devRef .tc main_v57) = _
  after_results_simp
  rw [r2_v1 m c, r2_v3 m c, r2_arg7 m c, r2_arg8 m c]
  try rfl

set_option maxHeartbeats 4000000 in
/-- After the third stretch: the graph edges' sources. -/
theorem r3_v5 : R3 m c (Proc.devRef .tc main_v5) = Cert.Bridge.edgeSrc (m ((c.tc : Thread nD τ).loc main_arg1)) := by
  show StableHlo.after (seg2 (F := Ideal)) (R2 m c) (Proc.devRef .tc main_v5) = _
  after_results_simp
  exact r2_v5 m c

set_option maxHeartbeats 4000000 in
/-- After the third stretch: the graph edges' targets. -/
theorem r3_v7 : R3 m c (Proc.devRef .tc main_v7) = Cert.Bridge.edgeTgt (m ((c.tc : Thread nD τ).loc main_arg1)) := by
  show StableHlo.after (seg2 (F := Ideal)) (R2 m c) (Proc.devRef .tc main_v7) = _
  after_results_simp
  exact r2_v7 m c

set_option maxHeartbeats 4000000 in
/-- The third stretch leaves argument 9 as launched. -/
theorem r3_arg9 : R3 m c (Proc.devRef .tc main_arg9) = (m ((c.tc : Thread nD τ).loc main_arg9)) := by
  show StableHlo.after (seg2 (F := Ideal)) (R2 m c) (Proc.devRef .tc main_arg9) = _
  after_results_simp
  exact r2_arg9 m c

set_option maxHeartbeats 4000000 in
/-- The third stretch leaves argument 10 as launched. -/
theorem r3_arg10 : R3 m c (Proc.devRef .tc main_arg10) = (m ((c.tc : Thread nD τ).loc main_arg10)) := by
  show StableHlo.after (seg2 (F := Ideal)) (R2 m c) (Proc.devRef .tc main_arg10) = _
  after_results_simp
  exact r2_arg10 m c

end Cert.ReferenceIdeal.RefReads

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.RefReads3.lean ====
/-
  The reference program's last stretch — the second neighbourhood sum, the output map and the row-wise log-softmax —
  and the whole run's result: the network of the argument arrays.
-/
import proofs.«149347_j360777253399_1_alg».proof.Proof.RefReads2
import proofs.«149347_j360777253399_1_alg».proof.Proof.LibTRef
import Idealize.ShloMosaic.Lib.StableHlo.Run

noncomputable section

namespace Cert.ReferenceIdeal.RefReads

open Cert.ReferenceIdeal Cert.ReferenceIdeal.Gen Cert.ReferenceIdeal.RefRun
open Idealize.ShloMosaic Idealize.ShloMosaic.TcCoe Idealize.SL.Sem Idealize.ShloMosaic.StableHlo

variable (m : (ℓ : Loc nD τ sig) → Buf (Elt Ideal) ℓ) (c : Dev nD)

/-- The buffers after the last stretch. -/
def R4 : Valuation τ sig (Elt Ideal) := StableHlo.after (seg3 (F := Ideal)) (R3 m c)

set_option maxHeartbeats 4000000 in
/-- After the last stretch: the output, from the third hidden features. -/
theorem r4_out : R4 m c (Proc.devRef .tc main_v73) = Cert.Bridge.output (R3 m c (Proc.devRef .tc main_v57)) (m ((c.tc : Thread nD τ).loc main_arg1)) (m ((c.tc : Thread nD τ).loc main_arg9)) (m ((c.tc : Thread nD τ).loc main_arg10)) := by
  show StableHlo.after (seg3 (F := Ideal)) (R3 m c) (Proc.devRef .tc main_v73) = _
  after_results_simp
  simp only [r3_v5 m c, r3_v7 m c, r3_arg9 m c, r3_arg10 m c]
  simp only [Cert.LibTRef.ofBuf_toBuf]
  rfl

/-- The result buffer after the four stretches is the network of the argument arrays. -/
theorem ref_out :
    StableHlo.after (ops (F := Ideal)) (launchContents m c) (Proc.devRef .tc main_v73)
      = Cert.Bridge.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_split]
  show R4 m c (Proc.devRef .tc main_v73) = _
  rw [r4_out m c, r3_h m c, r2_h m c, r1_h m c]
  try rfl

end Cert.ReferenceIdeal.RefReads

end
-- ==== Proof.lean ====
/-
  The certificate of a two-layer graph network over 50000 nodes: the kernel program — four pipelined regions (a
  linear map with bias on 5000-row blocks followed by max (·, 0), twice with the node's features first added to its
  neighbourhood sum, and in the last region followed by a row-wise log-softmax over 47 classes) among host stretches
  that gather and scatter-add along the egonet and graph edges — against the reference, which applies the same host
  operations and computes each dense layer as one 50000-row matrix product.

  On the extended reals both results are ONE function of the eleven argument arrays, `Cert.Bridge.network`:
    * a region's output array is its layer applied to the arrays it finds — at row 5000·t + p and column q the block's
      matrix product into the zero accumulator and the whole product are the same sum over k of x(r,k) · W(k,q), the
      bias row, the maximum with 0 and the row's log-softmax are read at the same index on both sides, and the ten
      blocks cover the array;
    * the host stretches between the regions are the reference's own operations on what the regions wrote (a bias
      reshaped to a row is the bias broadcast along a new leading axis);
    * composing along @main gives the network on both sides.  No law used needs finiteness: sums are only re-indexed.
  The frames are the generated ones (the kernel programs) and the fold of the reference's host operations, none of
  which writes an argument; the ideal pass rewrote nothing, so `preserves` is trivial.
-/
import proofs.«149347_j360777253399_1_alg».proof.Defs
import proofs.«149347_j360777253399_1_alg».proof.Proof.Gen.Kernel
import proofs.«149347_j360777253399_1_alg».proof.Proof.Gen.Kernel.Skeleton
import proofs.«149347_j360777253399_1_alg».proof.Proof.Gen.Kernel.Launch
import proofs.«149347_j360777253399_1_alg».proof.Proof.Gen.Kernel.Points
import proofs.«149347_j360777253399_1_alg».proof.Proof.Gen.Kernel.Frame
import proofs.«149347_j360777253399_1_alg».proof.Proof.Gen.KernelIdeal
import proofs.«149347_j360777253399_1_alg».proof.Proof.Gen.KernelIdeal.Skeleton
import proofs.«149347_j360777253399_1_alg».proof.Proof.Gen.KernelIdeal.Launch
import proofs.«149347_j360777253399_1_alg».proof.Proof.Gen.KernelIdeal.Points
import proofs.«149347_j360777253399_1_alg».proof.Proof.Gen.KernelIdeal.Frame
import proofs.«149347_j360777253399_1_alg».proof.Proof.Gen.ReferenceIdeal
import proofs.«149347_j360777253399_1_alg».proof.Proof.Gen.Pre_finite_inputs
import proofs.«149347_j360777253399_1_alg».proof.Proof.KRun
import proofs.«149347_j360777253399_1_alg».proof.Proof.KChain
import proofs.«149347_j360777253399_1_alg».proof.Proof.RefArgs
import proofs.«149347_j360777253399_1_alg».proof.Proof.RefReads3
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with every buffer at the fold of its host operations, and no operation writes an
    argument. -/
theorem frame_ri : Cert.frame_ReferenceIdeal := fun m ρ _ =>
  (θ_run Cert.ReferenceIdeal.defs _ _).mono (fun _ h c =>
    ⟨(h c _).trans (Cert.ReferenceIdeal.RefRun.kept_arg0 m c),
      (h c _).trans (Cert.ReferenceIdeal.RefRun.kept_arg1 m c),
      (h c _).trans (Cert.ReferenceIdeal.RefRun.kept_arg2 m c),
      (h c _).trans (Cert.ReferenceIdeal.RefRun.kept_arg3 m c),
      (h c _).trans (Cert.ReferenceIdeal.RefRun.kept_arg4 m c),
      (h c _).trans (Cert.ReferenceIdeal.RefRun.kept_arg5 m c),
      (h c _).trans (Cert.ReferenceIdeal.RefRun.kept_arg6 m c),
      (h c _).trans (Cert.ReferenceIdeal.RefRun.kept_arg7 m c),
      (h c _).trans (Cert.ReferenceIdeal.RefRun.kept_arg8 m c),
      (h c _).trans (Cert.ReferenceIdeal.RefRun.kept_arg9 m c),
      (h c _).trans (Cert.ReferenceIdeal.RefRun.kept_arg10 m c)⟩)
    (Cert.ReferenceIdeal.RefRun.run_after (F := Ideal) m ρ)

/-- The ideal pass rewrote no operation. -/
theorem preserves : Cert.preserves_Kernel_KernelIdeal := trivial

/-- Both programs end with the network of the (agreeing) argument arrays in their result buffer. -/
theorem algebraic : Cert.algebraic_KernelIdeal_ReferenceIdeal := by
  intro m ρ m' ρ' _ hagree
  refine ⟨fun c => Cert.Bridge.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.out m ρ c), (h c).2⟩)
      (Cert.KernelIdeal.RunOut.run_out (F := Ideal) m ρ)
  · refine (θ_run Cert.ReferenceIdeal.defs _ _).mono (fun _ h c => ⟨?_,
      (h c _).trans (Cert.ReferenceIdeal.RefRun.kept_arg0 m' c),
      (h c _).trans (Cert.ReferenceIdeal.RefRun.kept_arg1 m' c),
      (h c _).trans (Cert.ReferenceIdeal.RefRun.kept_arg2 m' c),
      (h c _).trans (Cert.ReferenceIdeal.RefRun.kept_arg3 m' c),
      (h c _).trans (Cert.ReferenceIdeal.RefRun.kept_arg4 m' c),
      (h c _).trans (Cert.ReferenceIdeal.RefRun.kept_arg5 m' c),
      (h c _).trans (Cert.ReferenceIdeal.RefRun.kept_arg6 m' c),
      (h c _).trans (Cert.ReferenceIdeal.RefRun.kept_arg7 m' c),
      (h c _).trans (Cert.ReferenceIdeal.RefRun.kept_arg8 m' c),
      (h c _).trans (Cert.ReferenceIdeal.RefRun.kept_arg9 m' c),
      (h c _).trans (Cert.ReferenceIdeal.RefRun.kept_arg10 m' c)⟩)
      (Cert.ReferenceIdeal.RefRun.run_after (F := Ideal) m' ρ')
    refine ((h c _).trans (Cert.ReferenceIdeal.RefReads.ref_out m' c)).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
